-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x128 : Shape := ⟨2, ![2000, 128]⟩
abbrev S2000x64 : Shape := ⟨2, ![2000, 64]⟩
abbrev S1700000x64 : Shape := ⟨2, ![1700000, 64]⟩
abbrev S1x64 : Shape := ⟨2, ![1, 64]⟩
abbrev S100000x40 : Shape := ⟨2, ![100000, 40]⟩
abbrev S2000x40 : Shape := ⟨2, ![2000, 40]⟩
abbrev S1700000x40 : Shape := ⟨2, ![1700000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 76
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x40, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x40, .f32⟩
  | .hbm, ⟨67, _⟩ => ⟨S1700000x1, .f32⟩
  | .hbm, ⟨68, _⟩ => ⟨S1700000x40, .f32⟩
  | .hbm, ⟨69, _⟩ => ⟨S1700000x40, .f32⟩
  | .hbm, ⟨70, _⟩ => ⟨S_, .f32⟩
  | .hbm, ⟨71, _⟩ => ⟨S100000x40, .f32⟩
  | .hbm, ⟨72, _⟩ => ⟨S1700000x1, .i32⟩
  | .hbm, ⟨73, _⟩ => ⟨S100000x40, .f32⟩
  | .hbm, ⟨74, _⟩ => ⟨S1x40, .f32⟩
  | .hbm, ⟨75, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S64x40, .f32⟩
  | .local _ .vmem, ⟨9, _⟩ => ⟨S2000x40, .f32⟩
  | .local _ .vmem, ⟨10, _⟩ => ⟨S2000x40, .f32⟩
  | .local _ .vmem, ⟨11, _⟩ => ⟨S2000x40, .f32⟩
  | .local _ .vmem, ⟨12, _⟩ => ⟨S2000x40, .f32⟩
  | .local _ .vmem, ⟨13, _⟩ => ⟨S1x40, .f32⟩
  | .local _ .vmem, ⟨14, _⟩ => ⟨S2000x40, .f32⟩
  | .local _ .vmem, ⟨15, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x40_S64x40_0_0 : ∀ a, (![0, 0] : Fin 2 → Nat) a + S64x40.size a ≤ S64x40.size a
  h_S64x40 : 0 < S64x40.numel
  inb_S2000x40_S2000x40_0_0 : ∀ a, (![0, 0] : Fin 2 → Nat) a + S2000x40.size a ≤ S2000x40.size a
  h_S2000x40 : 0 < S2000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x40_S2000x40_1_0_0_1_n_n_wf : DotDims.WF S2000x64 S64x40 S2000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S100000x40.size a
  hwx1_3 : ∀ i : grid1.Coords, EltTy.bits .f32 = 32 ∨ (Rect.block (s := S100000x40) S2000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S100000x40.size a
  hwx2_0 : ∀ i : grid2.Coords, EltTy.bits .f32 = 32 ∨ (Rect.block (s := S100000x40) S2000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S2000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000x64 : Shape := ⟨2, ![100000, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000x64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S100000x40, .f32⟩
  | .hbm, ⟨60, _⟩ => ⟨S1x1600000, .i32⟩
  | .hbm, ⟨61, _⟩ => ⟨S1600000, .i32⟩
  | .hbm, ⟨62, _⟩ => ⟨S1x1600000, .i32⟩
  | .hbm, ⟨63, _⟩ => ⟨S1600000, .i32⟩
  | .hbm, ⟨64, _⟩ => ⟨S100000, .i32⟩
  | .hbm, ⟨65, _⟩ => ⟨S1700000, .i32⟩
  | .hbm, ⟨66, _⟩ => ⟨S1700000, .i32⟩
  | .hbm, ⟨67, _⟩ => ⟨S_, .f32⟩
  | .hbm, ⟨68, _⟩ => ⟨S1700000, .f32⟩
  | .hbm, ⟨69, _⟩ => ⟨S_, .f32⟩
  | .hbm, ⟨70, _⟩ => ⟨S100000, .f32⟩
  | .hbm, ⟨71, _⟩ => ⟨S1700000x1, .i32⟩
  | .hbm, ⟨72, _⟩ => ⟨S100000, .f32⟩
  | .hbm, ⟨73, _⟩ => ⟨S100000, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x40, .f32⟩
  | .hbm, ⟨102, _⟩ => ⟨S1700000x1, .f32⟩
  | .hbm, ⟨103, _⟩ => ⟨S1700000x40, .f32⟩
  | .hbm, ⟨104, _⟩ => ⟨S1700000x40, .f32⟩
  | .hbm, ⟨105, _⟩ => ⟨S_, .f32⟩
  | .hbm, ⟨106, _⟩ => ⟨S100000x40, .f32⟩
  | .hbm, ⟨107, _⟩ => ⟨S1700000x1, .i32⟩
  | .hbm, ⟨108, _⟩ => ⟨S100000x40, .f32⟩
  | .hbm, ⟨109, _⟩ => ⟨S1x40, .f32⟩
  | .hbm, ⟨110, _⟩ => ⟨S100000x40, .f32⟩
  | .hbm, ⟨111, _⟩ => ⟨S100000x40, .f32⟩
  | .hbm, ⟨112, _⟩ => ⟨S_, .f32⟩
  | .hbm, ⟨113, _⟩ => ⟨S100000, .f32⟩
  | .hbm, ⟨114, _⟩ => ⟨S_, .f32⟩
  | .hbm, ⟨115, _⟩ => ⟨S100000, .f32⟩
  | .hbm, ⟨116, _⟩ => ⟨S100000, .f32⟩
  | .hbm, ⟨117, _⟩ => ⟨S100000x1, .f32⟩
  | .hbm, ⟨118, _⟩ => ⟨S100000x40, .f32⟩
  | .hbm, ⟨119, _⟩ => ⟨S100000x40, .f32⟩
  | .hbm, ⟨120, _⟩ => ⟨S100000x40, .f32⟩
  | .hbm, ⟨121, _⟩ => ⟨S_, .f32⟩
  | .hbm, ⟨122, _⟩ => ⟨S100000, .f32⟩
  | .hbm, ⟨123, _⟩ => ⟨S100000x1, .f32⟩
  | .hbm, ⟨124, _⟩ => ⟨S100000x1, .f32⟩
  | .hbm, ⟨125, _⟩ => ⟨S100000x40, .f32⟩
  | .hbm, ⟨126, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_9 : Ref sig .tc := ⟨.hbm, 74, rfl⟩
abbrev main_v57 : Ref sig .tc := ⟨.hbm, 75, rfl⟩
abbrev main_v58 : Ref sig .tc := ⟨.hbm, 76, rfl⟩
abbrev main_c_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_11 : Ref sig .tc := ⟨.hbm, 83, rfl⟩
abbrev main_v64 : Ref sig .tc := ⟨.hbm, 84, rfl⟩
abbrev main_v65 : Ref sig .tc := ⟨.hbm, 85, rfl⟩
abbrev main_c_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_13 : Ref sig .tc := ⟨.hbm, 93, rfl⟩
abbrev main_v72 : Ref sig .tc := ⟨.hbm, 94, rfl⟩
abbrev main_v73 : Ref sig .tc := ⟨.hbm, 95, rfl⟩
abbrev main_c_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_15 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_call0_cst : Ref sig .tc := ⟨.hbm, 112, rfl⟩
abbrev main_call0_v0 : Ref sig .tc := ⟨.hbm, 113, rfl⟩
abbrev main_call0_cst_0 : Ref sig .tc := ⟨.hbm, 114, rfl⟩
abbrev main_call0_v1 : Ref sig .tc := ⟨.hbm, 115, rfl⟩
abbrev main_call0_v2 : Ref sig .tc := ⟨.hbm, 116, rfl⟩
abbrev main_call0_v3 : Ref sig .tc := ⟨.hbm, 117, rfl⟩
abbrev main_call0_v4 : Ref sig .tc := ⟨.hbm, 118, rfl⟩
abbrev main_call0_v5 : Ref sig .tc := ⟨.hbm, 119, rfl⟩
abbrev main_call0_v6 : Ref sig .tc := ⟨.hbm, 120, rfl⟩
abbrev main_call0_cst_1 : Ref sig .tc := ⟨.hbm, 121, rfl⟩
abbrev main_call0_v7 : Ref sig .tc := ⟨.hbm, 122, rfl⟩
abbrev main_call0_v8 : Ref sig .tc := ⟨.hbm, 123, rfl⟩
abbrev main_call0_v9 : Ref sig .tc := ⟨.hbm, 124, rfl⟩
abbrev main_call0_v10 : Ref sig .tc := ⟨.hbm, 125, rfl⟩
abbrev main_v88 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.ResultKept.lean ====
/-
  The idealized kernel's run with its result kept.

  The program is three tiled regions among stretches of host operations. Its run ends with every unscoped buffer of a
  core at the contents of the last boundary of that chain (the fold `W6`: host stretches applied, each region's arrays
  at what its write-backs leave). The frame claim reads only the six argument buffers off that final state; here the
  result buffer is read as well, so that the run's post names the result: it is `W6` at the result's reference.
-/
import proofs.«141429_j20117626814729_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument buffers as launched. -/
theorem run : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Kept

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibRowMaps.lean ====
/-
  Row maps over the extended reals: arrays whose every row is a function of the matching row of an operand.

  `mapRows f A` is the `[a, J]` array whose row `r` is `f` of row `r` of the `[a, K]` array `A`. An array is
  `mapRows f A` as soon as each of its rows is `f` of the matching row of `A` (`eq_mapRows`), whatever the number
  of rows — so one row fact serves a block of rows and the whole array; and `mapRows f A` read at an index whose row
  is `r` needs only a row that agrees with row `r` of `A` (`mapRows_apply_of_row`): that is all a row-tiled evaluation
  of a node-wise layer needs. Three row functions of layered networks are named: the projection of a row by a weight
  matrix, `j ↦ ∑ k, h k · w[k, j]`; the shifted rectifier, `j ↦ max (h j + b j) z`; and the logistic score,
  `j ↦ logistic ((∑ k, h k · w[k, j]) + b j)`. Equal operands give equal row maps (the `_congr` lemmas), and the one
  row of a vector viewed as a `[1, J]` array is the vector (`rowOf_vector_as_row`). Rows and the array operations
  read on a row are LibRowLayers.lean's.
-/
import proofs.«141429_j20117626814729_1_alg».proof.Proof.LibRowLayers

noncomputable section

namespace Cert.Layers

open Idealize.ShloMosaic Idealize.ShloMosaic.ValueIdx Cert.RowLayers

/-- The array whose row `r` is `f` of row `r` of `A`. -/
def mapRows {a K J : ℕ} (f : (Fin K → EReal) → Fin J → EReal) (A : (⟨2, ![a, K]⟩ : Shape).Idx → EReal) :
    (⟨2, ![a, J]⟩ : Shape).Idx → EReal :=
  fun i => f (rowOf A (i 0)) (i 1)

theorem mapRows_ix2 {a K J : ℕ} (f : (Fin K → EReal) → Fin J → EReal) (A : (⟨2, ![a, K]⟩ : Shape).Idx → EReal)
    (r : Fin a) (q : Fin J) : mapRows f A (ix2 r q) = f (rowOf A r) q := rfl

/-- An array each of whose rows is `f` of the matching row of `A` is `mapRows f A`. -/
theorem eq_mapRows {a K J : ℕ} (f : (Fin K → EReal) → Fin J → EReal) (A : (⟨2, ![a, K]⟩ : Shape).Idx → EReal)
    (X : (⟨2, ![a, J]⟩ : Shape).Idx → EReal) (h : ∀ p : Fin a, rowOf X p = f (rowOf A p)) : X = mapRows f A :=
  funext fun i => (apply_eq_rowOf X i).trans (congrFun (h (i 0)) (i 1))

/-- `mapRows f A` at an index whose row coordinate is `r` and whose column coordinate is `q`, given a row `h`
    that agrees with row `r` of `A`. -/
theorem mapRows_apply_of_row {a K J : ℕ} (f : (Fin K → EReal) → Fin J → EReal) (A : (⟨2, ![a, K]⟩ : Shape).Idx → EReal)
    (i : (⟨2, ![a, J]⟩ : Shape).Idx) (r : Fin a) (q : Fin J) (hi : i = ix2 r q) (h : Fin K → EReal)
    (hrow : ∀ k : Fin K, h k = A (ix2 r k)) : f h q = mapRows f A i := by
  subst hi
  rw [mapRows_ix2]
  exact congrArg (fun g => f g q) (funext hrow)

/-- The projection of a row by a weight matrix: `j ↦ ∑ k, h k · w[k, j]`. -/
def project {K J : ℕ} (w : (⟨2, ![K, J]⟩ : Shape).Idx → EReal) (h : Fin K → EReal) : Fin J → EReal :=
  fun j => ∑ k : Fin K, h k * w (ix2 k j)

/-- The shifted rectifier of a row: `j ↦ max (h j + b j) z`. -/
def shiftRelu {J : ℕ} (z : EReal) (b : Fin J → EReal) (h : Fin J → EReal) : Fin J → EReal :=
  relu z (fun j => h j + b j)

/-- The scoring head on a row: `j ↦ logistic ((∑ k, h k · w[k, j]) + b j)`. -/
def score {K J : ℕ} (w : (⟨2, ![K, J]⟩ : Shape).Idx → EReal) (b : Fin J → EReal) (h : Fin K → EReal) :
    Fin J → EReal :=
  fun j => Ideal.logistic (project w h j + b j)

/-! ## Equal operands give equal layers -/

theorem mapRows_project_congr {a K J : ℕ} {w w' : (⟨2, ![K, J]⟩ : Shape).Idx → EReal} {A A' : (⟨2, ![a, K]⟩ : Shape).Idx → EReal}
    (hw : w = w') (hA : A = A') : mapRows (project w) A = mapRows (project w') A' := by
  subst hw; subst hA; rfl

theorem mapRows_shiftRelu_congr {a J : ℕ} (z : EReal) {b b' : Fin J → EReal} {A A' : (⟨2, ![a, J]⟩ : Shape).Idx → EReal}
    (hb : b = b') (hA : A = A') : mapRows (shiftRelu z b) A = mapRows (shiftRelu z b') A' := by
  subst hb; subst hA; rfl

theorem mapRows_score_congr {a K J : ℕ} {w w' : (⟨2, ![K, J]⟩ : Shape).Idx → EReal} {b b' : Fin J → EReal}
    {A A' : (⟨2, ![a, K]⟩ : Shape).Idx → EReal} (hw : w = w') (hb : b = b') (hA : A = A') :
    mapRows (score w b) A = mapRows (score w' b') A' := by
  subst hw; subst hb; subst hA; rfl

/-- The one row of a vector viewed as a `[1, J]` array is the vector, entry by entry. -/
theorem rowOf_vector_as_row {J : ℕ} (x : (⟨1, ![J]⟩ : Shape).Idx → EReal) (h : (⟨1, ![J]⟩ : Shape).ShapeCasts ⟨2, ![1, J]⟩) :
    rowOf (a := 1) (b := J) (shapeCast ⟨2, ![1, J]⟩ x h) 0 = fun j => x (ix1 j) :=
  funext fun j => shapeCast_a_1a_apply x h 0 j

end Cert.Layers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«141429_j20117626814729_1_alg».proof.Proof.LibRowLayers
import proofs.«141429_j20117626814729_1_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.LibLogSoftmaxRows.lean ====
/-
  A row-wise log-softmax as each program prints it, read at an entry.

  Both programs shift an `[a, n]` array of logits by its row maxima, exponentiate, sum each row, take the logarithm and
  subtract: entry `(p, j)` of the result is `logSoftmax` of row `p` at `j`. The device reduces along the lanes from an
  accumulator, re-lays the `[a]` result as an `[a, 1]` column and broadcasts it back; the host reduces from an initial
  value, takes the maximum with a splat of that same value once more (which changes nothing: the fold already starts
  there), gives the result a trailing unit axis and broadcasts it back; its sum starts from the zero word, which is the
  extended real `0`. The shifted array and the two per-row terms are named once (`logSoftmax_of_parts`), and each
  program's spelling of them is read into that form.
-/
import proofs.«141429_j20117626814729_1_alg».proof.Proof.LibChebRows

noncomputable section

namespace Cert.ChebRows

open Idealize.ShloMosaic Idealize.ShloMosaic.ValueIdx Cert.RowLayers

variable {a n : ℕ}

/-- If `Mx` holds, all along row `q`, that row's maximum of `L`, and `Sx` the logarithm of the row's sum of
    exponentials of the shifted entries, then `(L − Mx) − Sx` is the log-softmax of `L`'s rows. -/
theorem logSoftmax_of_parts (z : EReal) (L Mx Sx : FVec Ideal ⟨2, ![a, n]⟩ .f32)
    (hMx : ∀ (q : Fin a) (k : Fin n), Mx (ix2 q k) = rowMax z (rowOf L q))
    (hSx : ∀ (q : Fin a) (k : Fin n), Sx (ix2 q k) = Ideal.log (∑ k' : Fin n, Ideal.exp (L (ix2 q k') - rowMax z (rowOf L q))))
    (p : Fin a) (j : Fin n) : subf (subf L Mx) Sx (ix2 p j) = logSoftmax z (rowOf L p) j := by
  show (L (ix2 p j) - Mx (ix2 p j)) - Sx (ix2 p j) = _
  rw [hMx, hSx]
  rfl

/-- The device's spelling. -/
theorem logSoftmax_device_apply (L : FVec Ideal ⟨2, ![a, n]⟩ .f32) (accM acc0 : BitVec 32)
    (hr : (⟨2, ![a, n]⟩ : Shape).Reduces [1] (⟨1, ![a]⟩ : Shape)) (hφ : FKind.Formats .f32)
    (hM : accM = FKind.maximumf.neutral .f32 hφ) (h0 : acc0 = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    subf (subf L (broadcastTo ⟨2, ![a, n]⟩ (shapeCast ⟨2, ![a, 1]⟩ (multiReduction .maximumf [1] ⟨1, ![a]⟩ L accM hr hφ hM) hc) hb))
         (broadcastTo ⟨2, ![a, n]⟩ (log (shapeCast ⟨2, ![a, 1]⟩ (multiReduction .add [1] ⟨1, ![a]⟩
             (exp (subf L (broadcastTo ⟨2, ![a, n]⟩ (shapeCast ⟨2, ![a, 1]⟩ (multiReduction .maximumf [1] ⟨1, ![a]⟩ L accM hr hφ hM) hc) hb)))
             acc0 hr hφ h0) hc)) hb) (ix2 p j)
      = logSoftmax (Ideal.ofBits .f32 accM) (rowOf L p) j := by
  have hMx : ∀ (q : Fin a) (k : Fin n),
      broadcastTo ⟨2, ![a, n]⟩ (shapeCast ⟨2, ![a, 1]⟩ (multiReduction .maximumf [1] ⟨1, ![a]⟩ L accM hr hφ hM) hc) hb (ix2 q k)
        = rowMax (Ideal.ofBits .f32 accM) (rowOf L q) := fun q k =>
    (column_device_apply _ hc hb q k).trans (multiReduction_max_row L accM hr hφ hM q)
  refine logSoftmax_of_parts _ L _ _ hMx (fun q k => ?_) p j
  refine (Cert.ColumnBroadcast.broadcastTo_a1_ab_apply _ hb q k).trans ?_
  show Ideal.log (shapeCast ⟨2, ![a, 1]⟩ _ hc (ix2 q (0 : Fin 1))) = _
  rw [shapeCast_a_a1_apply, multiReduction_add_row]
  refine congrArg Ideal.log (Finset.sum_congr rfl fun k' _ => ?_)
  show Ideal.exp (L (ix2 q k') - _) = _
  rw [hMx]

/-- The host's spelling. -/
theorem logSoftmax_host_apply (L : FVec Ideal ⟨2, ![a, n]⟩ .f32) (wM : BitVec 32)
    (h' : (⟨2, ![a, n]⟩ : Shape).ReducesTo [1] (⟨1, ![a]⟩ : Shape)) (hr : (⟨2, ![a, n]⟩ : Shape).Reduces [1] (⟨1, ![a]⟩ : Shape))
    (hu : 0 < (⟨0, ![]⟩ : Shape).numel)
    (hs : (⟨0, ![]⟩ : Shape).BroadcastsInDim ⟨1, ![a]⟩ (![] : Fin 0 → Fin 1))
    (h1 : (⟨1, ![a]⟩ : Shape).BroadcastsInDim ⟨2, ![a, 1]⟩ ![0]) (h2 : (⟨2, ![a, 1]⟩ : Shape).BroadcastsInDim ⟨2, ![a, n]⟩ ![0, 1])
    (p : Fin a) (j : Fin n) :
    subf (subf L (broadcastInDim ⟨2, ![a, n]⟩ ![0, 1] h2 (broadcastInDim ⟨2, ![a, 1]⟩ ![0] h1
            (maximumf (broadcastInDim ⟨1, ![a]⟩ ![] hs (constant (F := Ideal) ⟨0, ![]⟩ .f32 wM))
              (Host.reduce FloatOps.maximumf L (constant (F := Ideal) ⟨0, ![]⟩ .f32 wM) h' hu)))))
         (broadcastInDim ⟨2, ![a, n]⟩ ![0, 1] h2 (Host.log (broadcastInDim ⟨2, ![a, 1]⟩ ![0] h1
            (Host.reduceAdd (Host.exp (subf L (broadcastInDim ⟨2, ![a, n]⟩ ![0, 1] h2 (broadcastInDim ⟨2, ![a, 1]⟩ ![0] h1
                (maximumf (broadcastInDim ⟨1, ![a]⟩ ![] hs (constant (F := Ideal) ⟨0, ![]⟩ .f32 wM))
                  (Host.reduce FloatOps.maximumf L (constant (F := Ideal) ⟨0, ![]⟩ .f32 wM) h' hu))))))
              (constant (F := Ideal) ⟨0, ![]⟩ .f32 0x00000000#32) h' hu)))) (ix2 p j)
      = logSoftmax (Ideal.ofBits .f32 wM) (rowOf L p) j := by
  have hMx : ∀ (q : Fin a) (k : Fin n),
      broadcastInDim ⟨2, ![a, n]⟩ ![0, 1] h2 (broadcastInDim ⟨2, ![a, 1]⟩ ![0] h1
            (maximumf (broadcastInDim ⟨1, ![a]⟩ ![] hs (constant (F := Ideal) ⟨0, ![]⟩ .f32 wM))
              (Host.reduce FloatOps.maximumf L (constant (F := Ideal) ⟨0, ![]⟩ .f32 wM) h' hu))) (ix2 q k)
        = rowMax (Ideal.ofBits .f32 wM) (rowOf L q) := fun q k => by
    rw [lanes_host_apply, column_host_apply]
    show max (broadcastInDim ⟨1, ![a]⟩ ![] hs (constant (F := Ideal) ⟨0, ![]⟩ .f32 wM) (ix1 q))
        (Host.reduce FloatOps.maximumf L (constant (F := Ideal) ⟨0, ![]⟩ .f32 wM) h' hu (ix1 q)) = _
    rw [hostReduce_max_row L _ h' hr hu q,
      broadcastInDim_apply ![] hs (constant (F := Ideal) ⟨0, ![]⟩ .f32 wM) (ix1 q) ix0 (fun ax => ax.elim0)]
    exact max_rowMax _ _
  refine logSoftmax_of_parts _ L _ _ hMx (fun q k => ?_) p j
  rw [lanes_host_apply]
  refine (congrArg Ideal.log (column_host_apply _ h1 q (0 : Fin 1))).trans ?_
  rw [hostReduceAdd_row _ _ h' hr hu q]
  show Ideal.log (Ideal.ofBits .f32 0x00000000#32 + _) = _
  rw [Ideal.ofBits_zero_f32, zero_add]
  refine congrArg Ideal.log (Finset.sum_congr rfl fun k' _ => ?_)
  show Ideal.exp (L (ix2 q k') - _) = _
  rw [hMx]

end Cert.ChebRows

end
-- ==== Proof.LibShiftedRows.lean ====
/-
  Layers that add a bias row to a row BEFORE they act on it, over the extended reals.

  Two node-wise layers of a graph network take a row `h` of their input, move it by a bias row `b` entry by entry, and
  only then act: a projection, `j ↦ ∑ k, (h k + b k) · w[k, j]`, and a log-softmax of `h + b`. This file names the
  shifted row and those two row functions, and reads the array programs that compute them — for ANY number of rows, so
  that one statement serves a tile of rows and the whole array — as row maps (`mapRows`): the device's spellings (operands
  re-laid to their own shape, a `[1, K]` bias broadcast down the rows, a change of float format before a product into a
  zero accumulator; lane reductions re-laid as a column and broadcast back) and the host's (a `[K]` bias given a unit
  axis and broadcast, a `dot_general`; reductions from an initial value broadcast back through a unit column). A change
  of float format is the identity on extended reals, and no entry is asked to be finite: each side is the same sum and
  the same fold term by term. Also: dimension numbers `[1], [0], [0], [1]` with no batch axes say "rows times columns".
-/
import proofs.«141429_j20117626814729_1_alg».proof.Proof.LibRowMaps
import proofs.«141429_j20117626814729_1_alg».proof.Proof.LibLogSoftmaxRows

noncomputable section

namespace Cert.ShiftedRows

open Idealize.ShloMosaic Idealize.ShloMosaic.ValueIdx Cert.RowLayers Cert.Layers Cert.ChebRows

/-! ## The row functions -/

/-- A row moved by a bias row: entry `k` is `h k + b k`. -/
def shift {K : ℕ} (b h : Fin K → EReal) : Fin K → EReal := fun k => h k + b k

/-- The projection of the shifted row: `j ↦ ∑ k, (h k + b k) · w[k, j]`. -/
def shiftProject {K J : ℕ} (w : (⟨2, ![K, J]⟩ : Shape).Idx → EReal) (b h : Fin K → EReal) : Fin J → EReal :=
  project w (shift b h)

/-- The log-softmax of the shifted row, its maximum folded from `z`. -/
def shiftLogSoftmax {n : ℕ} (z : EReal) (b h : Fin n → EReal) : Fin n → EReal := logSoftmax z (shift b h)

/-! ## Dimension numbers that say "rows times columns" -/

/-- An `[a, K] × [K, b] → [a, b]` product that contracts the left operand's axis 1 with the right operand's axis 0,
    keeps the left axis 0 and the right axis 1 and has no batch axes, reads (row, k) on the left and (k, column) on the
    right. -/
theorem rowsTimesCols_of_lists {a K b : ℕ} (d : DotDims ⟨2, ![a, K]⟩ ⟨2, ![K, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = []) : RowsTimesCols d := by
  obtain ⟨lc, rc, ln, rn, lb, rb, wf⟩ := d
  dsimp only at h1 h2 h3 h4 h5 h6
  subst h1 h2 h3 h4 h5 h6
  exact
    { rank := rfl
      size := rfl
      lhs0 := fun j q => by
        unfold DotDims.lhsIdx
        rw [dif_neg List.not_mem_nil, dif_pos (List.mem_singleton.mpr rfl)]
        rfl
      lhs1 := fun j q => DotDims.lhsIdx_val_of_single _ rfl j q
      rhs0 := fun j q => DotDims.rhsIdx_val_of_single _ rfl j q
      rhs1 := fun j q => by
        unfold DotDims.rhsIdx
        rw [dif_neg List.not_mem_nil, dif_pos (List.mem_singleton.mpr rfl)]
        rfl }

/-! ## The shifted row, as each program forms it -/

section Shift
variable {a K : ℕ}

/-- The device's sum of an array and a `[1, K]` bias row broadcast down the rows: row `p` is row `p` shifted by the
    bias row. -/
theorem rowOf_shift_device (x : FVec Ideal ⟨2, ![a, K]⟩ .f32) (bias : FVec Ideal ⟨2, ![1, K]⟩ .f32)
    (hB : (⟨2, ![1, K]⟩ : Shape).Broadcasts ⟨2, ![a, K]⟩) (p : Fin a) :
    rowOf (addf x (broadcastTo ⟨2, ![a, K]⟩ bias hB)) p = shift (rowOf bias 0) (rowOf x p) := by
  rw [rowOf_addf, rowOf_broadcastTo]
  rfl

/-- The host's sum of an array and a `[K]` bias given a unit leading axis and broadcast down the rows: row `p` is
    row `p` shifted by the bias. -/
theorem rowOf_shift_host (x : FVec Ideal ⟨2, ![a, K]⟩ .f32) (bias : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![a, K]⟩ ![0, 1]) (p : Fin a) :
    rowOf (addf x (broadcastInDim ⟨2, ![a, K]⟩ ![0, 1] h2 (broadcastInDim ⟨2, ![1, K]⟩ ![1] h1 bias))) p
      = shift (fun j => bias (ix1 j)) (rowOf x p) := by
  rw [rowOf_addf, rowOf_broadcastInDim_vec]
  rfl

end Shift

/-! ## Projections -/

section Projections
variable {a K J : ℕ} {d : DotDims ⟨2, ![a, K]⟩ ⟨2, ![K, J]⟩ ⟨2, ![a, J]⟩}

/-- The device's product of two operands whose float format is first changed, into a zero accumulator: every row of
    the result is the projection of the matching row of the left operand. -/
theorem device_project (H : RowsTimesCols d) (prec : Option ContractPrecision)
    (x : FVec Ideal ⟨2, ![a, K]⟩ .f32) (w : FVec Ideal ⟨2, ![K, J]⟩ .f32) (hb : FTy.bits .bf16 < FTy.bits .f32) :
    matmul d prec (truncf .bf16 x hb) (truncf .bf16 w hb) (constant (F := Ideal) ⟨2, ![a, J]⟩ .f32 0x00000000#32)
      = mapRows (project w) x :=
  eq_mapRows _ _ _ fun p => rowOf_matmul_zero H prec (truncf .bf16 x hb) (truncf .bf16 w hb) p

/-- The host's product: every row of the result is the projection of the matching row of the left operand. -/
theorem host_project (H : RowsTimesCols d) (prec : Option ContractPrecision)
    (x : FVec Ideal ⟨2, ![a, K]⟩ .f32) (w : FVec Ideal ⟨2, ![K, J]⟩ .f32) :
    Host.dotGeneral (F := Ideal) d prec x w = mapRows (project w) x :=
  eq_mapRows _ _ _ fun p => rowOf_dotGeneral H prec x w p

/-- The device's bias-then-product: the operands re-laid to their own shapes, the `[1, K]` bias broadcast down the
    rows and added, the float format changed, the product taken into a zero accumulator. -/
theorem device_shiftProject (H : RowsTimesCols d) (prec : Option ContractPrecision)
    (x : FVec Ideal ⟨2, ![a, K]⟩ .f32) (bias : FVec Ideal ⟨2, ![1, K]⟩ .f32) (w : FVec Ideal ⟨2, ![K, J]⟩ .f32)
    (hc1 : (⟨2, ![a, K]⟩ : Shape).ShapeCasts ⟨2, ![a, K]⟩) (hc2 : (⟨2, ![1, K]⟩ : Shape).ShapeCasts ⟨2, ![1, K]⟩)
    (hB : (⟨2, ![1, K]⟩ : Shape).Broadcasts ⟨2, ![a, K]⟩) (hb : FTy.bits .bf16 < FTy.bits .f32) :
    matmul d prec
        (truncf .bf16 (addf (shapeCast ⟨2, ![a, K]⟩ x hc1) (broadcastTo ⟨2, ![a, K]⟩ (shapeCast ⟨2, ![1, K]⟩ bias hc2) hB)) hb)
        (truncf .bf16 w hb) (constant (F := Ideal) ⟨2, ![a, J]⟩ .f32 0x00000000#32)
      = mapRows (shiftProject w (rowOf bias 0)) x := by
  rw [shapeCast_self, shapeCast_self]
  refine eq_mapRows _ _ _ fun p => ?_
  rw [rowOf_matmul_zero H]
  show project w (rowOf (addf x (broadcastTo ⟨2, ![a, K]⟩ bias hB)) p) = _
  rw [rowOf_shift_device]
  rfl

/-- The host's bias-then-product: the `[K]` bias given a unit axis, broadcast down the rows and added, then a
    `dot_general`. -/
theorem host_shiftProject (H : RowsTimesCols d) (prec : Option ContractPrecision)
    (x : FVec Ideal ⟨2, ![a, K]⟩ .f32) (bias : FVec Ideal ⟨1, ![K]⟩ .f32) (w : FVec Ideal ⟨2, ![K, J]⟩ .f32)
    (h1 : (⟨1, ![K]⟩ : Shape).BroadcastsInDim ⟨2, ![1, K]⟩ ![1])
    (h2 : (⟨2, ![1, K]⟩ : Shape).BroadcastsInDim ⟨2, ![a, K]⟩ ![0, 1]) :
    Host.dotGeneral (F := Ideal) d prec
        (addf x (broadcastInDim ⟨2, ![a, K]⟩ ![0, 1] h2 (broadcastInDim ⟨2, ![1, K]⟩ ![1] h1 bias))) w
      = mapRows (shiftProject w (fun j => bias (ix1 j))) x := by
  refine eq_mapRows _ _ _ fun p => ?_
  rw [rowOf_dotGeneral H]
  show project w (rowOf (addf x (broadcastInDim ⟨2, ![a, K]⟩ ![0, 1] h2 (broadcastInDim ⟨2, ![1, K]⟩ ![1] h1 bias))) p) = _
  rw [rowOf_shift_host]
  rfl

end Projections

/-! ## Log-softmax of the shifted rows -/

section LogSoftmax
variable {a n : ℕ}

/-- The device's bias-then-log-softmax: the operands re-laid to their own shapes, the `[1, n]` bias broadcast down the
    rows and added, then the row-wise log-softmax with its lane reductions re-laid as columns. -/
theorem device_shiftLogSoftmax (x : FVec Ideal ⟨2, ![a, n]⟩ .f32) (bias : FVec Ideal ⟨2, ![1, n]⟩ .f32)
    (hc1 : (⟨2, ![a, n]⟩ : Shape).ShapeCasts ⟨2, ![a, n]⟩) (hc2 : (⟨2, ![1, n]⟩ : Shape).ShapeCasts ⟨2, ![1, n]⟩)
    (hB : (⟨2, ![1, n]⟩ : Shape).Broadcasts ⟨2, ![a, n]⟩) (accM acc0 : BitVec 32)
    (hr : (⟨2, ![a, n]⟩ : Shape).Reduces [1] (⟨1, ![a]⟩ : Shape)) (hφ : FKind.Formats .f32)
    (hM : accM = FKind.maximumf.neutral .f32 hφ) (h0 : acc0 = FKind.add.neutral .f32 hφ)
    (hc : (⟨1, ![a]⟩ : Shape).ShapeCasts ⟨2, ![a, 1]⟩) (hb : (⟨2, ![a, 1]⟩ : Shape).Broadcasts ⟨2, ![a, n]⟩) :
    subf (subf (addf (shapeCast ⟨2, ![a, n]⟩ x hc1) (broadcastTo ⟨2, ![a, n]⟩ (shapeCast ⟨2, ![1, n]⟩ bias hc2) hB))
            (broadcastTo ⟨2, ![a, n]⟩ (shapeCast ⟨2, ![a, 1]⟩ (multiReduction .maximumf [1] ⟨1, ![a]⟩
              (addf (shapeCast ⟨2, ![a, n]⟩ x hc1) (broadcastTo ⟨2, ![a, n]⟩ (shapeCast ⟨2, ![1, n]⟩ bias hc2) hB)) accM hr hφ hM) hc) hb))
         (broadcastTo ⟨2, ![a, n]⟩ (log (shapeCast ⟨2, ![a, 1]⟩ (multiReduction .add [1] ⟨1, ![a]⟩
             (exp (subf (addf (shapeCast ⟨2, ![a, n]⟩ x hc1) (broadcastTo ⟨2, ![a, n]⟩ (shapeCast ⟨2, ![1, n]⟩ bias hc2) hB))
                (broadcastTo ⟨2, ![a, n]⟩ (shapeCast ⟨2, ![a, 1]⟩ (multiReduction .maximumf [1] ⟨1, ![a]⟩
                  (addf (shapeCast ⟨2, ![a, n]⟩ x hc1) (broadcastTo ⟨2, ![a, n]⟩ (shapeCast ⟨2, ![1, n]⟩ bias hc2) hB)) accM hr hφ hM) hc) hb)))
             acc0 hr hφ h0) hc)) hb)
      = mapRows (shiftLogSoftmax (Ideal.ofBits .f32 accM) (rowOf bias 0)) x := by
  rw [shapeCast_self, shapeCast_self]
  funext i
  obtain ⟨p, q, rfl⟩ : ∃ (p : Fin a) (q : Fin n), i = ix2 p q := ⟨i 0, i 1, eq_ix2 i⟩
  rw [logSoftmax_device_apply, rowOf_shift_device]
  rfl

/-- The host's bias-then-log-softmax: the `[n]` bias given a unit axis, broadcast down the rows and added, then the
    row-wise log-softmax with its reductions broadcast back through a unit column. -/
theorem host_shiftLogSoftmax (x : FVec Ideal ⟨2, ![a, n]⟩ .f32) (bias : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![a, n]⟩ ![0, 1]) (wM : BitVec 32)
    (h' : (⟨2, ![a, n]⟩ : Shape).ReducesTo [1] (⟨1, ![a]⟩ : Shape)) (hr : (⟨2, ![a, n]⟩ : Shape).Reduces [1] (⟨1, ![a]⟩ : Shape))
    (hu : 0 < (⟨0, ![]⟩ : Shape).numel)
    (hs : (⟨0, ![]⟩ : Shape).BroadcastsInDim ⟨1, ![a]⟩ (![] : Fin 0 → Fin 1))
    (h1 : (⟨1, ![a]⟩ : Shape).BroadcastsInDim ⟨2, ![a, 1]⟩ ![0]) (h2 : (⟨2, ![a, 1]⟩ : Shape).BroadcastsInDim ⟨2, ![a, n]⟩ ![0, 1]) :
    subf (subf (addf x (broadcastInDim ⟨2, ![a, n]⟩ ![0, 1] g2 (broadcastInDim ⟨2, ![1, n]⟩ ![1] g1 bias)))
            (broadcastInDim ⟨2, ![a, n]⟩ ![0, 1] h2 (broadcastInDim ⟨2, ![a, 1]⟩ ![0] h1
              (maximumf (broadcastInDim ⟨1, ![a]⟩ ![] hs (constant (F := Ideal) ⟨0, ![]⟩ .f32 wM))
                (Host.reduce FloatOps.maximumf (addf x (broadcastInDim ⟨2, ![a, n]⟩ ![0, 1] g2 (broadcastInDim ⟨2, ![1, n]⟩ ![1] g1 bias)))
                  (constant (F := Ideal) ⟨0, ![]⟩ .f32 wM) h' hu)))))
         (broadcastInDim ⟨2, ![a, n]⟩ ![0, 1] h2 (Host.log (broadcastInDim ⟨2, ![a, 1]⟩ ![0] h1
            (Host.reduceAdd (Host.exp (subf (addf x (broadcastInDim ⟨2, ![a, n]⟩ ![0, 1] g2 (broadcastInDim ⟨2, ![1, n]⟩ ![1] g1 bias)))
                (broadcastInDim ⟨2, ![a, n]⟩ ![0, 1] h2 (broadcastInDim ⟨2, ![a, 1]⟩ ![0] h1
                  (maximumf (broadcastInDim ⟨1, ![a]⟩ ![] hs (constant (F := Ideal) ⟨0, ![]⟩ .f32 wM))
                    (Host.reduce FloatOps.maximumf (addf x (broadcastInDim ⟨2, ![a, n]⟩ ![0, 1] g2 (broadcastInDim ⟨2, ![1, n]⟩ ![1] g1 bias)))
                      (constant (F := Ideal) ⟨0, ![]⟩ .f32 wM) h' hu))))))
              (constant (F := Ideal) ⟨0, ![]⟩ .f32 0x00000000#32) h' hu))))
      = mapRows (shiftLogSoftmax (Ideal.ofBits .f32 wM) (fun j => bias (ix1 j))) x := by
  funext i
  obtain ⟨p, q, rfl⟩ : ∃ (p : Fin a) (q : Fin n), i = ix2 p q := ⟨i 0, i 1, eq_ix2 i⟩
  rw [logSoftmax_host_apply _ wM h' hr hu hs h1 h2, rowOf_shift_host]
  rfl

end LogSoftmax

end Cert.ShiftedRows

end
-- ==== Proof.LibRowTiles.lean ====
/-
  A tile of rows of a row map, over the extended reals.

  `mapRows f A` treats every row of `A` alone, so evaluating it on a tile of consecutive rows of `A` gives the matching
  tile of `mapRows f A`: if `A₀` holds the rows of `A` from row `r₀` on, then `mapRows f A₀` at `(p, q)` is `mapRows f A` at
  `(r₀ + p, q)`. This is the one step from a row-tiled evaluation (a grid of row blocks) to the whole array; the row
  function `f` is arbitrary and nothing is asked of the entries.
-/
import proofs.«141429_j20117626814729_1_alg».proof.Proof.LibRowMaps

noncomputable section

namespace Cert.RowTiles

open Idealize.ShloMosaic Idealize.ShloMosaic.ValueIdx Cert.RowLayers Cert.Layers

/-- A tile of rows: `A₀` reads as `A` shifted down by `r₀` rows, and then so does the row map. -/
theorem mapRows_tile {a₀ a K J : ℕ} (f : (Fin K → EReal) → Fin J → EReal)
    (A : (⟨2, ![a, K]⟩ : Shape).Idx → EReal) (A₀ : (⟨2, ![a₀, K]⟩ : Shape).Idx → EReal) (r₀ : ℕ)
    (hA₀ : ∀ (y : (⟨2, ![a₀, K]⟩ : Shape).Idx) (z : (⟨2, ![a, K]⟩ : Shape).Idx),
      (z 0).val = r₀ + (y 0).val → (z 1).val = (y 1).val → A₀ y = A z)
    (j : (⟨2, ![a₀, J]⟩ : Shape).Idx) (i : (⟨2, ![a, J]⟩ : Shape).Idx)
    (hi0 : (i 0).val = r₀ + (j 0).val) (hi1 : (i 1).val = (j 1).val) :
    mapRows f A₀ j = mapRows f A i := by
  have hrow : rowOf A₀ (j 0) = rowOf A (i 0) := funext fun k => hA₀ (ix2 (j 0) k) (ix2 (i 0) k) hi0 rfl
  have hcol : (j 1 : Fin J) = i 1 := Fin.ext hi1.symm
  show f (rowOf A₀ (j 0)) (j 1) = f (rowOf A (i 0)) (i 1)
  rw [hrow, hcol]

end Cert.RowTiles

end
-- ==== Proof.TilesOne.lean ====
/-
  The first tiled region: `x · W₁`, 2000 rows at a time.

  Grid point `t` of the region reads rows `2000·t … 2000·t + 1999` of the node features (all 128 columns) and the whole
  weight matrix, and writes the same rows of the result. A product treats every row of its left operand alone, so the
  tile it writes is the tile of the whole projection `mapRows (project W₁) x`; the fifty tiles cover the 100000 rows,
  so the result array ends as that projection of the arrays the region found.
-/
import proofs.«141429_j20117626814729_1_alg».proof.Proof.Gen.KernelIdeal.Frame
import proofs.«141429_j20117626814729_1_alg».proof.Proof.LibShiftedRows
import proofs.«141429_j20117626814729_1_alg».proof.Proof.LibRowTiles

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowLayers Cert.Layers Cert.ShiftedRows Cert.RowTiles

/-- The origin of a rank-2 rectangle, as a constant function. -/
theorem origin2 : (![0, 0] : Fin 2 → Nat) = fun _ => 0 := funext fun a => by fin_cases a <;> rfl

/-- The tile product's dimension numbers say rows times columns. -/
theorem rtc_one : RowsTimesCols dot_S2000x128_S128x64_S2000x64_1_0_0_1_n_n :=
  rowsTimesCols_of_lists _ rfl rfl rfl rfl rfl rfl

/-- What the body computes from a tile of rows and the weights: the projection of every row of the tile. -/
theorem tile_one (x0 : Vec Ideal S2000x128 .f32) (x1 : Vec Ideal S128x64 .f32) :
    k0_pay1 (F := Ideal) x0 x1 = mapRows (project x1) x0 :=
  device_project rtc_one none x0 x1 bitsLt_bf16_f32

/-- The three index maps over the grid: rows move with the point, the weights stay. -/
theorem index_one : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 50 :=
  (by decide +kernel : ∀ t : Fin grid0.N, _)

variable (V : (c : Dev nD) → (b : Ref sig .tc) → Buf (Elt Ideal) ((c : Thread nD τ).loc b))

/-- What point `t` writes back is tile `t` of the projection of the arrays the region found. -/
theorem flushed_one (c : Dev nD) (t : Fin cfg0.N) :
    (dat0 V c).flushed 2 t
      = ((cfg0.win 2).blk t).view.read (Elt Ideal) (mapRows (project (V c main_arg2)) (V c main_arg0)) := by
  show (cfg0.win 2).cut (grid0.coords t) ((dat0 V c).after 2 t) = _
  rw [after0_2]
  unfold out0_2
  rw [View.canon_unit_zero origin2]
  simp only [View.ld_unit_zero (S := S2000x128) origin2, View.ld_unit_zero (S := S128x64) origin2]
  obtain ⟨e00, e01, e10, e11, e20, e21, -⟩ := index_one t
  have hw : (iblk0 V c 1 t : S128x64.Idx → EReal) = V c main_arg2 := funext fun y => by
    show V c main_arg2 (((cfg0.win 1).blk t).view.emb y) = V c main_arg2 y
    refine congrArg (V c main_arg2) (funext fun ax => Fin.ext ?_)
    match ax with
    | ⟨0, _⟩ => show win0_1.index t (0 : Fin 2) * 128 + 1 * (y 0).val = (y 0).val; omega
    | ⟨1, _⟩ => show win0_1.index t (1 : Fin 2) * 64 + 1 * (y 1).val = (y 1).val; omega
  funext j
  show k0_pay1 (F := Ideal) (iblk0 V c 0 t) (iblk0 V c 1 t) j
    = mapRows (project (V c main_arg2)) (V c main_arg0) (((cfg0.win 2).blk t).view.emb j)
  refine (congrFun (tile_one (iblk0 V c 0 t) (iblk0 V c 1 t)) j).trans ?_
  rw [hw]
  refine mapRows_tile (project (V c main_arg2)) (V c main_arg0) (iblk0 V c 0 t) (t.val * 2000) (fun y z h0 h1 => ?_) j _ ?_ ?_
  · show V c main_arg0 (((cfg0.win 0).blk t).view.emb y) = V c main_arg0 z
    refine congrArg (V c main_arg0) (funext fun ax => Fin.ext ?_)
    match ax with
    | ⟨0, _⟩ => show win0_0.index t (0 : Fin 2) * 2000 + 1 * (y 0).val = (z 0).val; omega
    | ⟨1, _⟩ => show win0_0.index t (1 : Fin 2) * 128 + 1 * (y 1).val = (z 1).val; omega
  · show win0_2.index t (0 : Fin 2) * 2000 + 1 * (j 0).val = t.val * 2000 + (j 0).val; omega
  · show win0_2.index t (1 : Fin 2) * 64 + 1 * (j 1).val = (j 1).val; omega

/-- An index of the result array is in point `t`'s tile iff each coordinate is in the tile's range. -/
theorem mem_tile_one (t : Fin cfg0.N) (i : S100000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v27).slice (win0_2.rect t)).set ↔ _
  rw [View.set_slice_whole, Rect.mem_set_unit]
  exact Iff.rfl

/-- Every row is in the tile of the point numbered by its quotient by 2000. -/
theorem cover_one (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 2000 < cfg0.N := by rw [show cfg0.N = 50 from N_0]; omega
  refine ⟨⟨(i 0).val / 2000, hN⟩, flush0_2 _, ?_⟩
  obtain ⟨-, -, -, -, e20, e21, -⟩ := index_one ⟨(i 0).val / 2000, hN⟩
  rw [mem_tile_one]
  intro a
  match a with
  | ⟨0, _⟩ =>
    show win0_2.index ⟨(i 0).val / 2000, hN⟩ (0 : Fin 2) * 2000 ≤ (i 0).val
      ∧ (i 0).val < win0_2.index ⟨(i 0).val / 2000, hN⟩ (0 : Fin 2) * 2000 + 2000
    rw [e20]; show (i 0).val / 2000 * 2000 ≤ (i 0).val ∧ (i 0).val < (i 0).val / 2000 * 2000 + 2000; omega
  | ⟨1, _⟩ =>
    show win0_2.index ⟨(i 0).val / 2000, hN⟩ (1 : Fin 2) * 64 ≤ (i 1).val
      ∧ (i 1).val < win0_2.index ⟨(i 0).val / 2000, hN⟩ (1 : Fin 2) * 64 + 64
    rw [e21]; omega

/-- THE RESULT ARRAY of the first region: the projection by the weights it found of the features it found. -/
theorem final_one (c : Dev nD) :
    (dat0 V c).arrAt 2 cfg0.N = mapRows (project (V c main_arg2)) (V c main_arg0) :=
  (dat0 V c).arrAt_eq_of_cover 2 _ (fun t _ => flushed_one V c t) cover_one

end Cert.KernelIdeal.Tiles

end
-- ==== Proof.TilesTwo.lean ====
/-
  The second tiled region: `(h + b₁) · W₂`, 2000 rows at a time.

  Grid point `t` reads rows `2000·t … 2000·t + 1999` of the aggregated hidden features, the whole `[1, 64]` bias row and
  the whole weight matrix, and writes the same rows of the result. Adding the bias row and projecting treat every row
  alone, so the tile written is the tile of `mapRows (shiftProject W₂ b₁) h`; the fifty tiles cover the 100000 rows.
-/
import proofs.«141429_j20117626814729_1_alg».proof.Proof.Gen.KernelIdeal.Frame
import proofs.«141429_j20117626814729_1_alg».proof.Proof.LibShiftedRows
import proofs.«141429_j20117626814729_1_alg».proof.Proof.LibRowTiles
import proofs.«141429_j20117626814729_1_alg».proof.Proof.TilesOne

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowLayers Cert.Layers Cert.ShiftedRows Cert.RowTiles

/-- The tile product's dimension numbers say rows times columns. -/
theorem rtc_two : RowsTimesCols dot_S2000x64_S64x40_S2000x40_1_0_0_1_n_n :=
  rowsTimesCols_of_lists _ rfl rfl rfl rfl rfl rfl

/-- What the body computes from a tile of rows, the bias row and the weights: every row of the tile moved by the bias
    row and projected. -/
theorem tile_two (x0 : Vec Ideal S2000x64 .f32) (x1 : Vec Ideal S1x64 .f32) (x2 : Vec Ideal S64x40 .f32) :
    k1_pay1 (F := Ideal) x0 x1 x2 = mapRows (shiftProject x2 (rowOf (a := 1) (b := 64) x1 0)) x0 :=
  device_shiftProject rtc_two none x0 x1 x2 shapeCasts_S2000x64_S2000x64 shapeCasts_S1x64_S1x64
    broadcasts_S1x64_S2000x64 bitsLt_bf16_f32

/-- The four index maps over the grid: rows move with the point, the bias row and the weights stay. -/
theorem index_two : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 50 :=
  (by decide +kernel : ∀ t : Fin grid1.N, _)

variable (V : (c : Dev nD) → (b : Ref sig .tc) → Buf (Elt Ideal) ((c : Thread nD τ).loc b))

/-- What point `t` writes back is tile `t` of the shifted projection of the arrays the region found. -/
theorem flushed_two (c : Dev nD) (t : Fin cfg1.N) :
    (dat1 V c).flushed 3 t
      = ((cfg1.win 3).blk t).view.read (Elt Ideal)
          (mapRows (shiftProject (V c main_arg4) (rowOf (a := 1) (b := 64) (V c main_v41) 0)) (V c main_v40)) := by
  show (cfg1.win 3).cut (grid1.coords t) ((dat1 V c).after 3 t) = _
  rw [after1_3]
  unfold out1_3
  rw [View.canon_unit_zero origin2]
  simp only [View.ld_unit_zero (S := S2000x64) origin2, View.ld_unit_zero (S := S1x64) origin2,
    View.ld_unit_zero (S := S64x40) origin2]
  obtain ⟨e00, e01, e10, e11, e20, e21, e30, e31, -⟩ := index_two t
  have hb : (iblk1 V c 1 t : S1x64.Idx → EReal) = V c main_v41 := funext fun y => by
    show V c main_v41 (((cfg1.win 1).blk t).view.emb y) = V c main_v41 y
    refine congrArg (V c main_v41) (funext fun ax => Fin.ext ?_)
    match ax with
    | ⟨0, _⟩ => show win1_1.index t (0 : Fin 2) * 1 + 1 * (y 0).val = (y 0).val; omega
    | ⟨1, _⟩ => show win1_1.index t (1 : Fin 2) * 64 + 1 * (y 1).val = (y 1).val; omega
  have hw : (iblk1 V c 2 t : S64x40.Idx → EReal) = V c main_arg4 := funext fun y => by
    show V c main_arg4 (((cfg1.win 2).blk t).view.emb y) = V c main_arg4 y
    refine congrArg (V c main_arg4) (funext fun ax => Fin.ext ?_)
    match ax with
    | ⟨0, _⟩ => show win1_2.index t (0 : Fin 2) * 64 + 1 * (y 0).val = (y 0).val; omega
    | ⟨1, _⟩ => show win1_2.index t (1 : Fin 2) * 40 + 1 * (y 1).val = (y 1).val; omega
  funext j
  show k1_pay1 (F := Ideal) (iblk1 V c 0 t) (iblk1 V c 1 t) (iblk1 V c 2 t) j
    = mapRows (shiftProject (V c main_arg4) (rowOf (a := 1) (b := 64) (V c main_v41) 0)) (V c main_v40)
        (((cfg1.win 3).blk t).view.emb j)
  refine (congrFun (tile_two (iblk1 V c 0 t) (iblk1 V c 1 t) (iblk1 V c 2 t)) j).trans ?_
  rw [hb, hw]
  refine mapRows_tile (shiftProject (V c main_arg4) (rowOf (a := 1) (b := 64) (V c main_v41) 0)) (V c main_v40)
    (iblk1 V c 0 t) (t.val * 2000) (fun y z h0 h1 => ?_) j _ ?_ ?_
  · show V c main_v40 (((cfg1.win 0).blk t).view.emb y) = V c main_v40 z
    refine congrArg (V c main_v40) (funext fun ax => Fin.ext ?_)
    match ax with
    | ⟨0, _⟩ => show win1_0.index t (0 : Fin 2) * 2000 + 1 * (y 0).val = (z 0).val; omega
    | ⟨1, _⟩ => show win1_0.index t (1 : Fin 2) * 64 + 1 * (y 1).val = (z 1).val; omega
  · show win1_3.index t (0 : Fin 2) * 2000 + 1 * (j 0).val = t.val * 2000 + (j 0).val; omega
  · show win1_3.index t (1 : Fin 2) * 40 + 1 * (j 1).val = (j 1).val; omega

/-- An index of the result array is in point `t`'s tile iff each coordinate is in the tile's range. -/
theorem mem_tile_two (t : Fin cfg1.N) (i : S100000x40.Idx) :
    i ∈ ((cfg1.win 3).blk t).view.set ↔ ∀ a : Fin 2, win1_3.index t a * S2000x40.size a ≤ (i a).val
      ∧ (i a).val < win1_3.index t a * S2000x40.size a + S2000x40.size a := by
  show i ∈ ((View.whole main_v42).slice (win1_3.rect t)).set ↔ _
  rw [View.set_slice_whole, Rect.mem_set_unit]
  exact Iff.rfl

/-- Every row is in the tile of the point numbered by its quotient by 2000. -/
theorem cover_two (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  have hN : (i 0).val / 2000 < cfg1.N := by rw [show cfg1.N = 50 from N_1]; omega
  refine ⟨⟨(i 0).val / 2000, hN⟩, flush1_3 _, ?_⟩
  obtain ⟨-, -, -, -, -, -, e30, e31, -⟩ := index_two ⟨(i 0).val / 2000, hN⟩
  rw [mem_tile_two]
  intro a
  match a with
  | ⟨0, _⟩ =>
    show win1_3.index ⟨(i 0).val / 2000, hN⟩ (0 : Fin 2) * 2000 ≤ (i 0).val
      ∧ (i 0).val < win1_3.index ⟨(i 0).val / 2000, hN⟩ (0 : Fin 2) * 2000 + 2000
    rw [e30]; show (i 0).val / 2000 * 2000 ≤ (i 0).val ∧ (i 0).val < (i 0).val / 2000 * 2000 + 2000; omega
  | ⟨1, _⟩ =>
    show win1_3.index ⟨(i 0).val / 2000, hN⟩ (1 : Fin 2) * 40 ≤ (i 1).val
      ∧ (i 1).val < win1_3.index ⟨(i 0).val / 2000, hN⟩ (1 : Fin 2) * 40 + 40
    rw [e31]; omega

/-- THE RESULT ARRAY of the second region: every row of the array it found, moved by the bias row it found and
    projected by the weights it found. -/
theorem final_two (c : Dev nD) :
    (dat1 V c).arrAt 3 cfg1.N
      = mapRows (shiftProject (V c main_arg4) (rowOf (a := 1) (b := 64) (V c main_v41) 0)) (V c main_v40) :=
  (dat1 V c).arrAt_eq_of_cover 3 _ (fun t _ => flushed_two V c t) cover_two

end Cert.KernelIdeal.Tiles

end
-- ==== Proof.TilesThree.lean ====
/-
  The third tiled region: the log-softmax of `h + b₂`, 2000 rows at a time.

  Grid point `t` reads rows `2000·t … 2000·t + 1999` of the aggregated output features and the whole `[1, 40]` bias row,
  and writes the same rows of the result. Adding the bias row and taking a row-wise log-softmax treat every row alone,
  so the tile written is the tile of `mapRows (shiftLogSoftmax −∞ b₂) h`; the fifty tiles cover the 100000 rows.
-/
import proofs.«141429_j20117626814729_1_alg».proof.Proof.Gen.KernelIdeal.Frame
import proofs.«141429_j20117626814729_1_alg».proof.Proof.LibShiftedRows
import proofs.«141429_j20117626814729_1_alg».proof.Proof.LibRowTiles
import proofs.«141429_j20117626814729_1_alg».proof.Proof.TilesOne

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowLayers Cert.Layers Cert.ShiftedRows Cert.RowTiles

/-- What the body computes from a tile of rows and the bias row: the log-softmax of every row of the tile moved by the
    bias row, its maximum folded from the accumulator's start value. -/
theorem tile_three (x0 : Vec Ideal S2000x40 .f32) (x1 : Vec Ideal S1x40 .f32) :
    k2_pay1 (F := Ideal) x0 x1
      = mapRows (shiftLogSoftmax (Ideal.ofBits .f32 0xFF800000#32) (rowOf (a := 1) (b := 40) x1 0)) x0 :=
  device_shiftLogSoftmax x0 x1 shapeCasts_S2000x40_S2000x40 shapeCasts_S1x40_S1x40 broadcasts_S1x40_S2000x40
    0xFF800000#32 0x00000000#32 reduces_S2000x40_S2000 (.inl rfl) rfl rfl shapeCasts_S2000_S2000x1
    broadcasts_S2000x1_S2000x40

/-- The three index maps over the grid: rows move with the point, the bias row stays. -/
theorem index_three : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 50 :=
  (by decide +kernel : ∀ t : Fin grid2.N, _)

variable (V : (c : Dev nD) → (b : Ref sig .tc) → Buf (Elt Ideal) ((c : Thread nD τ).loc b))

/-- What point `t` writes back is tile `t` of the shifted log-softmax of the arrays the region found. -/
theorem flushed_three (c : Dev nD) (t : Fin cfg2.N) :
    (dat2 V c).flushed 2 t
      = ((cfg2.win 2).blk t).view.read (Elt Ideal)
          (mapRows (shiftLogSoftmax (Ideal.ofBits .f32 0xFF800000#32) (rowOf (a := 1) (b := 40) (V c main_v56) 0))
            (V c main_v55)) := by
  show (cfg2.win 2).cut (grid2.coords t) ((dat2 V c).after 2 t) = _
  rw [after2_2]
  unfold out2_2
  rw [View.canon_unit_zero origin2]
  simp only [View.ld_unit_zero (S := S2000x40) origin2, View.ld_unit_zero (S := S1x40) origin2]
  obtain ⟨e00, e01, e10, e11, e20, e21, -⟩ := index_three t
  have hb : (iblk2 V c 1 t : S1x40.Idx → EReal) = V c main_v56 := funext fun y => by
    show V c main_v56 (((cfg2.win 1).blk t).view.emb y) = V c main_v56 y
    refine congrArg (V c main_v56) (funext fun ax => Fin.ext ?_)
    match ax with
    | ⟨0, _⟩ => show win2_1.index t (0 : Fin 2) * 1 + 1 * (y 0).val = (y 0).val; omega
    | ⟨1, _⟩ => show win2_1.index t (1 : Fin 2) * 40 + 1 * (y 1).val = (y 1).val; omega
  funext j
  show k2_pay1 (F := Ideal) (iblk2 V c 0 t) (iblk2 V c 1 t) j
    = mapRows (shiftLogSoftmax (Ideal.ofBits .f32 0xFF800000#32) (rowOf (a := 1) (b := 40) (V c main_v56) 0))
        (V c main_v55) (((cfg2.win 2).blk t).view.emb j)
  refine (congrFun (tile_three (iblk2 V c 0 t) (iblk2 V c 1 t)) j).trans ?_
  rw [hb]
  refine mapRows_tile (shiftLogSoftmax (Ideal.ofBits .f32 0xFF800000#32) (rowOf (a := 1) (b := 40) (V c main_v56) 0))
    (V c main_v55) (iblk2 V c 0 t) (t.val * 2000) (fun y z h0 h1 => ?_) j _ ?_ ?_
  · show V c main_v55 (((cfg2.win 0).blk t).view.emb y) = V c main_v55 z
    refine congrArg (V c main_v55) (funext fun ax => Fin.ext ?_)
    match ax with
    | ⟨0, _⟩ => show win2_0.index t (0 : Fin 2) * 2000 + 1 * (y 0).val = (z 0).val; omega
    | ⟨1, _⟩ => show win2_0.index t (1 : Fin 2) * 40 + 1 * (y 1).val = (z 1).val; omega
  · show win2_2.index t (0 : Fin 2) * 2000 + 1 * (j 0).val = t.val * 2000 + (j 0).val; omega
  · show win2_2.index t (1 : Fin 2) * 40 + 1 * (j 1).val = (j 1).val; omega

/-- An index of the result array is in point `t`'s tile iff each coordinate is in the tile's range. -/
theorem mem_tile_three (t : Fin cfg2.N) (i : S100000x40.Idx) :
    i ∈ ((cfg2.win 2).blk t).view.set ↔ ∀ a : Fin 2, win2_2.index t a * S2000x40.size a ≤ (i a).val
      ∧ (i a).val < win2_2.index t a * S2000x40.size a + S2000x40.size a := by
  show i ∈ ((View.whole main_v57).slice (win2_2.rect t)).set ↔ _
  rw [View.set_slice_whole, Rect.mem_set_unit]
  exact Iff.rfl

/-- Every row is in the tile of the point numbered by its quotient by 2000. -/
theorem cover_three (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : (i 0).val / 2000 < cfg2.N := by rw [show cfg2.N = 50 from N_2]; omega
  refine ⟨⟨(i 0).val / 2000, hN⟩, flush2_2 _, ?_⟩
  obtain ⟨-, -, -, -, e20, e21, -⟩ := index_three ⟨(i 0).val / 2000, hN⟩
  rw [mem_tile_three]
  intro a
  match a with
  | ⟨0, _⟩ =>
    show win2_2.index ⟨(i 0).val / 2000, hN⟩ (0 : Fin 2) * 2000 ≤ (i 0).val
      ∧ (i 0).val < win2_2.index ⟨(i 0).val / 2000, hN⟩ (0 : Fin 2) * 2000 + 2000
    rw [e20]; show (i 0).val / 2000 * 2000 ≤ (i 0).val ∧ (i 0).val < (i 0).val / 2000 * 2000 + 2000; omega
  | ⟨1, _⟩ =>
    show win2_2.index ⟨(i 0).val / 2000, hN⟩ (1 : Fin 2) * 40 ≤ (i 1).val
      ∧ (i 1).val < win2_2.index ⟨(i 0).val / 2000, hN⟩ (1 : Fin 2) * 40 + 40
    rw [e21]; omega

/-- THE RESULT ARRAY of the third region: the log-softmax of every row of the array it found moved by the bias row it
    found. -/
theorem final_three (c : Dev nD) :
    (dat2 V c).arrAt 2 cfg2.N
      = mapRows (shiftLogSoftmax (Ideal.ofBits .f32 0xFF800000#32) (rowOf (a := 1) (b := 40) (V c main_v56) 0))
          (V c main_v55) :=
  (dat2 V c).arrAt_eq_of_cover 2 _ (fun t _ => flushed_three V c t) cover_three

end Cert.KernelIdeal.Tiles

end
-- ==== Proof.GraphStages.lean ====
/-
  The host computations of a two-layer graph convolution, named once.

  Both programs extend the edge list by one self-loop per node (`sources`, `targets`), count every node's incoming
  edges by an accumulating scatter of ones, take the reciprocal square root of the counts (`invSqrtDegree`), weigh
  edge `e` by the product of that quantity at its two ends (`edgeWeight`), and aggregate a feature table along the
  edges: gather the source rows, scale each by its edge's weight, scatter-add them at the targets (`spread64`,
  `spread40`). A node number given as a negative word counts from the end (`column`). The reference's whole result is
  these stages composed with two `dot_general`s, two bias additions and a row-wise log-softmax (`result`); the stages
  are plain functions of arrays, so a program's host stretch read at a buffer is one of them applied to what the stretch
  found.
-/
import proofs.«141429_j20117626814729_1_alg».proof.Proof.Gen.ReferenceIdeal

noncomputable section

namespace Cert.Graph

open Cert.ReferenceIdeal Cert.ReferenceIdeal.Gen Idealize.ShloMosaic

variable {F : FTy → Type} [FloatOps F]

/-- The sources of the extended edge list: row 0 of the edge array, then the nodes `0 … 99999` (the self-loops). -/
def sources (x1 : (⟨S2x1600000, .i32⟩ : BufTy).Contents (Elt F)) : (⟨S1700000, .i32⟩ : BufTy).Contents (Elt F) :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- The targets of the extended edge list: row 1 of the edge array, then the nodes `0 … 99999`. -/
def targets (x1 : (⟨S2x1600000, .i32⟩ : BufTy).Contents (Elt F)) : (⟨S1700000, .i32⟩ : BufTy).Contents (Elt F) :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- Node numbers as a column of start indices, a negative word first moved up by the number of nodes. -/
def column (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The reciprocal square root of every node's number of incoming edges (a one scattered per edge at its target). -/
def invSqrtDegree (dst : (⟨S1700000, .i32⟩ : BufTy).Contents (Elt F)) : (⟨S100000, .f32⟩ : BufTy).Contents (Elt F) :=
  Host.rsqrt (Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32)))

/-- The weight of every edge: the product of `invSqrtDegree` at its source and at its target. -/
def edgeWeight (src dst : (⟨S1700000, .i32⟩ : BufTy).Contents (Elt F)) : (⟨S1700000, .f32⟩ : BufTy).Contents (Elt F) :=
  mulf (Host.gather gather_S100000_S1700000x1_S1700000_n_0_n_n_0_1_1 (invSqrtDegree dst) (column src))
    (Host.gather gather_S100000_S1700000x1_S1700000_n_0_n_n_0_1_1 (invSqrtDegree dst) (column dst))

/-- A 64-column table aggregated along the edges: source rows gathered, scaled by the edge's weight, scatter-added at
    the targets. -/
def spread64 (h : (⟨S100000x64, .f32⟩ : BufTy).Contents (Elt F)) (src dst : (⟨S1700000, .i32⟩ : BufTy).Contents (Elt F))
    (w : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf (Host.gather gather_S100000x64_S1700000x1_S1700000x64_1_0_n_n_0_1_164 h (column src))
      (broadcastInDim S1700000x64 ![0, 1] bcast_S1700000x1_S1700000x64_0_1
        (broadcastInDim S1700000x1 ![0] bcast_S1700000_S1700000x1_0 w)))

/-- The same for a 40-column table. -/
def spread40 (h : (⟨S100000x40, .f32⟩ : BufTy).Contents (Elt F)) (src dst : (⟨S1700000, .i32⟩ : BufTy).Contents (Elt F))
    (w : (⟨S1700000, .f32⟩ : BufTy).Contents (Elt F)) : (⟨S100000x40, .f32⟩ : BufTy).Contents (Elt F) :=
  Host.scatterAdd scatter_S100000x40_S1700000x1_S1700000x40_1_0_0_1
    (broadcastInDim S100000x40 ![] bcast_S_S100000x40 (constant S_ .f32 0x00000000#32))
    (broadcastInDim S1700000x1 ![0] bcast_S1700000_S1700000x1_0 dst)
    (mulf (Host.gather gather_S100000x40_S1700000x1_S1700000x40_1_0_n_n_0_1_140 h (column src))
      (broadcastInDim S1700000x40 ![0, 1] bcast_S1700000x1_S1700000x40_0_1
        (broadcastInDim S1700000x1 ![0] bcast_S1700000_S1700000x1_0 w)))

/-- The hidden layer before its bias: `x · W₁` aggregated along the edges. -/
def hidden (x0 : (⟨S100000x128, .f32⟩ : BufTy).Contents (Elt F)) (x1 : (⟨S2x1600000, .i32⟩ : BufTy).Contents (Elt F))
    (x2 : (⟨S128x64, .f32⟩ : BufTy).Contents (Elt F)) : (⟨S100000x64, .f32⟩ : BufTy).Contents (Elt F) :=
  spread64 (Host.dotGeneral dot_S100000x128_S128x64_S100000x64_1_0_0_1_n_n none x0 x2) (sources x1) (targets x1)
    (edgeWeight (sources x1) (targets x1))

/-- The hidden layer with its bias, projected by `W₂`: the host's spelling. -/
def projected (h : (⟨S100000x64, .f32⟩ : BufTy).Contents (Elt F)) (x3 : (⟨S64, .f32⟩ : BufTy).Contents (Elt F))
    (x4 : (⟨S64x40, .f32⟩ : BufTy).Contents (Elt F)) : (⟨S100000x40, .f32⟩ : BufTy).Contents (Elt F) :=
  Host.dotGeneral dot_S100000x64_S64x40_S100000x40_1_0_0_1_n_n none
    (addf h (broadcastInDim S100000x64 ![0, 1] bcast_S1x64_S100000x64_0_1 (broadcastInDim S1x64 ![1] bcast_S64_S1x64_1 x3))) x4

/-- The output layer before its bias: the projected hidden layer aggregated along the edges. -/
def logits (x0 : (⟨S100000x128, .f32⟩ : BufTy).Contents (Elt F)) (x1 : (⟨S2x1600000, .i32⟩ : BufTy).Contents (Elt F))
    (x2 : (⟨S128x64, .f32⟩ : BufTy).Contents (Elt F)) (x3 : (⟨S64, .f32⟩ : BufTy).Contents (Elt F))
    (x4 : (⟨S64x40, .f32⟩ : BufTy).Contents (Elt F)) : (⟨S100000x40, .f32⟩ : BufTy).Contents (Elt F) :=
  spread40 (projected (hidden x0 x1 x2) x3 x4) (sources x1) (targets x1) (edgeWeight (sources x1) (targets x1))

/-- The host's row-wise log-softmax of an array with a bias vector added first. -/
def biasLogSoftmax (h : (⟨S100000x40, .f32⟩ : BufTy).Contents (Elt F)) (x5 : (⟨S40, .f32⟩ : BufTy).Contents (Elt F)) :
    (⟨S100000x40, .f32⟩ : BufTy).Contents (Elt F) :=
  subf (subf (addf h (broadcastInDim S100000x40 ![0, 1] bcast_S1x40_S100000x40_0_1 (broadcastInDim S1x40 ![1] bcast_S40_S1x40_1 x5)))
          (broadcastInDim S100000x40 ![0, 1] bcast_S100000x1_S100000x40_0_1 (broadcastInDim S100000x1 ![0] bcast_S100000_S100000x1_0
            (maximumf (broadcastInDim S100000 ![] bcast_S_S100000 (constant S_ .f32 0xFF800000#32))
              (Host.reduce FloatOps.maximumf (addf h (broadcastInDim S100000x40 ![0, 1] bcast_S1x40_S100000x40_0_1 (broadcastInDim S1x40 ![1] bcast_S40_S1x40_1 x5)))
                (constant S_ .f32 0xFF800000#32) reducesTo_S100000x40_S100000_d1 h_S_)))))
       (broadcastInDim S100000x40 ![0, 1] bcast_S100000x1_S100000x40_0_1 (Host.log (broadcastInDim S100000x1 ![0] bcast_S100000_S100000x1_0
          (Host.reduceAdd (Host.exp (subf (addf h (broadcastInDim S100000x40 ![0, 1] bcast_S1x40_S100000x40_0_1 (broadcastInDim S1x40 ![1] bcast_S40_S1x40_1 x5)))
              (broadcastInDim S100000x40 ![0, 1] bcast_S100000x1_S100000x40_0_1 (broadcastInDim S100000x1 ![0] bcast_S100000_S100000x1_0
                (maximumf (broadcastInDim S100000 ![] bcast_S_S100000 (constant S_ .f32 0xFF800000#32))
                  (Host.reduce FloatOps.maximumf (addf h (broadcastInDim S100000x40 ![0, 1] bcast_S1x40_S100000x40_0_1 (broadcastInDim S1x40 ![1] bcast_S40_S1x40_1 x5)))
                    (constant S_ .f32 0xFF800000#32) reducesTo_S100000x40_S100000_d1 h_S_))))))
            (constant S_ .f32 0x00000000#32) reducesTo_S100000x40_S100000_d1 h_S_))))

/-- The reference's whole result as a function of its six arguments. -/
def result (x0 : (⟨S100000x128, .f32⟩ : BufTy).Contents (Elt F)) (x1 : (⟨S2x1600000, .i32⟩ : BufTy).Contents (Elt F))
    (x2 : (⟨S128x64, .f32⟩ : BufTy).Contents (Elt F)) (x3 : (⟨S64, .f32⟩ : BufTy).Contents (Elt F))
    (x4 : (⟨S64x40, .f32⟩ : BufTy).Contents (Elt F)) (x5 : (⟨S40, .f32⟩ : BufTy).Contents (Elt F)) :
    (⟨S100000x40, .f32⟩ : BufTy).Contents (Elt F) :=
  biasLogSoftmax (logits x0 x1 x2 x3 x4) x5

end Cert.Graph

end
-- ==== Proof.KernelStages.lean ====
/-
  The idealized kernel's three host stretches, read at the buffers later segments use.

  From ANY contents `W` of a core's buffers: the first stretch leaves the extended edge list's sources and targets and the
  edge weights, computed from the edge array it finds; the second leaves the first region's result aggregated along the
  edges (`spread64` of what it finds in four buffers) and the hidden bias re-laid as a `[1, 64]` row; the third leaves the
  second region's result aggregated (`spread40`) and the output bias re-laid as a `[1, 40]` row. Every other buffer read
  later is left as found. The stages are the shared functions of GraphStages; the kernel's own dimension records are
  the same records under other names.
-/
import proofs.«141429_j20117626814729_1_alg».proof.Proof.Gen.KernelIdeal.Launch
import proofs.«141429_j20117626814729_1_alg».proof.Proof.GraphStages
import Idealize.ShloMosaic.Lib.StableHlo.Run
import Idealize.ShloMosaic.PureOps.Ideal

noncomputable section

namespace Cert.KernelIdeal.Stages

open Cert.KernelIdeal Cert.KernelIdeal.Gen Idealize.ShloMosaic Idealize.ShloMosaic.StableHlo Cert.Graph

variable (W : Valuation τ sig (Elt Ideal))

/-! ## The first stretch: the graph's own quantities -/

set_option maxHeartbeats 1000000 in
theorem first_sources : after hostOps0 W (Proc.devRef .tc main_v5) = sources (F := Ideal) (W (Proc.devRef .tc main_arg1)) := by
  after_results_simp <;> rfl

set_option maxHeartbeats 1000000 in
theorem first_targets : after hostOps0 W (Proc.devRef .tc main_v6) = targets (F := Ideal) (W (Proc.devRef .tc main_arg1)) := by
  after_results_simp <;> rfl

set_option maxHeartbeats 1000000 in
theorem first_weights : after hostOps0 W (Proc.devRef .tc main_v26)
    = edgeWeight (F := Ideal) (sources (W (Proc.devRef .tc main_arg1))) (targets (W (Proc.devRef .tc main_arg1))) := by
  after_results_simp <;> rfl

set_option maxHeartbeats 1000000 in
theorem first_keeps_arg0 : after hostOps0 W (Proc.devRef .tc main_arg0) = W (Proc.devRef .tc main_arg0) := by
  after_results_simp <;> rfl

set_option maxHeartbeats 1000000 in
theorem first_keeps_arg2 : after hostOps0 W (Proc.devRef .tc main_arg2) = W (Proc.devRef .tc main_arg2) := by
  after_results_simp <;> rfl

set_option maxHeartbeats 1000000 in
theorem first_keeps_arg3 : after hostOps0 W (Proc.devRef .tc main_arg3) = W (Proc.devRef .tc main_arg3) := by
  after_results_simp <;> rfl

set_option maxHeartbeats 1000000 in
theorem first_keeps_arg4 : after hostOps0 W (Proc.devRef .tc main_arg4) = W (Proc.devRef .tc main_arg4) := by
  after_results_simp <;> rfl

set_option maxHeartbeats 1000000 in
theorem first_keeps_arg5 : after hostOps0 W (Proc.devRef .tc main_arg5) = W (Proc.devRef .tc main_arg5) := by
  after_results_simp <;> rfl

/-! ## The second stretch: the first aggregation, and the hidden bias as a row -/

set_option maxHeartbeats 1000000 in
theorem second_spread : after hostOps1 W (Proc.devRef .tc main_v40)
    = spread64 (F := Ideal) (W (Proc.devRef .tc main_v27)) (W (Proc.devRef .tc main_v5)) (W (Proc.devRef .tc main_v6))
        (W (Proc.devRef .tc main_v26)) := by
  after_results_simp <;> rfl

set_option maxHeartbeats 1000000 in
theorem second_bias : after hostOps1 W (Proc.devRef .tc main_v41)
    = shapeCast S1x64 (W (Proc.devRef .tc main_arg3)) shapeCasts_S64_S1x64 := by
  after_results_simp <;> rfl

set_option maxHeartbeats 1000000 in
theorem second_keeps_v5 : after hostOps1 W (Proc.devRef .tc main_v5) = W (Proc.devRef .tc main_v5) := by
  after_results_simp <;> rfl

set_option maxHeartbeats 1000000 in
theorem second_keeps_v6 : after hostOps1 W (Proc.devRef .tc main_v6) = W (Proc.devRef .tc main_v6) := by
  after_results_simp <;> rfl

set_option maxHeartbeats 1000000 in
theorem second_keeps_v26 : after hostOps1 W (Proc.devRef .tc main_v26) = W (Proc.devRef .tc main_v26) := by
  after_results_simp <;> rfl

set_option maxHeartbeats 1000000 in
theorem second_keeps_arg4 : after hostOps1 W (Proc.devRef .tc main_arg4) = W (Proc.devRef .tc main_arg4) := by
  after_results_simp <;> rfl

set_option maxHeartbeats 1000000 in
theorem second_keeps_arg5 : after hostOps1 W (Proc.devRef .tc main_arg5) = W (Proc.devRef .tc main_arg5) := by
  after_results_simp <;> rfl

/-! ## The third stretch: the second aggregation, and the output bias as a row -/

set_option maxHeartbeats 1000000 in
theorem third_spread : after hostOps2 W (Proc.devRef .tc main_v55)
    = spread40 (F := Ideal) (W (Proc.devRef .tc main_v42)) (W (Proc.devRef .tc main_v5)) (W (Proc.devRef .tc main_v6))
        (W (Proc.devRef .tc main_v26)) := by
  after_results_simp <;> rfl

set_option maxHeartbeats 1000000 in
theorem third_bias : after hostOps2 W (Proc.devRef .tc main_v56)
    = shapeCast S1x40 (W (Proc.devRef .tc main_arg5)) shapeCasts_S40_S1x40 := by
  after_results_simp <;> rfl

end Cert.KernelIdeal.Stages

end
-- ==== Proof.GraphLaws.lean ====
/-
  The reference's three dense steps as row maps.

  A `dot_general` with rows-times-columns dimension numbers projects every row of its left operand; adding a bias vector
  (given a unit axis and broadcast down the rows) first moves every row by the bias; the row-wise log-softmax after
  such an addition is the log-softmax of the moved row. So the three dense steps of the reference are `mapRows` of
  `project`, `shiftProject` and `shiftLogSoftmax` — the same row functions the kernel's tiles compute.
-/
import proofs.«141429_j20117626814729_1_alg».proof.Proof.GraphStages
import proofs.«141429_j20117626814729_1_alg».proof.Proof.LibShiftedRows

noncomputable section

namespace Cert.Graph

open Cert.ReferenceIdeal Cert.ReferenceIdeal.Gen Idealize.ShloMosaic Idealize.ShloMosaic.ValueIdx
open Cert.RowLayers Cert.Layers Cert.ShiftedRows

/-- The two products of the reference contract rows with columns. -/
theorem rtc_first : RowsTimesCols dot_S100000x128_S128x64_S100000x64_1_0_0_1_n_n :=
  rowsTimesCols_of_lists _ rfl rfl rfl rfl rfl rfl

theorem rtc_second : RowsTimesCols dot_S100000x64_S64x40_S100000x40_1_0_0_1_n_n :=
  rowsTimesCols_of_lists _ rfl rfl rfl rfl rfl rfl

/-- The `[100000, 40]` logits with their lane axis removed are a `[100000]` vector. -/
theorem reduces_lanes : S100000x40.Reduces [1] S100000 := by decide

/-- `x · W₁` on the host projects every row of `x`. -/
theorem dot_first_eq (x0 : (⟨S100000x128, .f32⟩ : BufTy).Contents (Elt Ideal)) (x2 : (⟨S128x64, .f32⟩ : BufTy).Contents (Elt Ideal)) :
    Host.dotGeneral (F := Ideal) (φ₁ := .f32) (φ₂ := .f32) dot_S100000x128_S128x64_S100000x64_1_0_0_1_n_n none x0 x2
      = mapRows (project x2) x0 :=
  host_project rtc_first none x0 x2

/-- `(h + b₁) · W₂` on the host moves every row of `h` by the bias and projects it. -/
theorem projected_eq (h : (⟨S100000x64, .f32⟩ : BufTy).Contents (Elt Ideal)) (x3 : (⟨S64, .f32⟩ : BufTy).Contents (Elt Ideal))
    (x4 : (⟨S64x40, .f32⟩ : BufTy).Contents (Elt Ideal)) :
    projected (F := Ideal) h x3 x4 = mapRows (shiftProject x4 (fun j => x3 (ix1 j))) h :=
  host_shiftProject rtc_second none h x3 x4 bcast_S64_S1x64_1 bcast_S1x64_S100000x64_0_1

/-- The host's log-softmax of `h + b₂` is the log-softmax of every row of `h` moved by the bias. -/
theorem biasLogSoftmax_eq (h : (⟨S100000x40, .f32⟩ : BufTy).Contents (Elt Ideal)) (x5 : (⟨S40, .f32⟩ : BufTy).Contents (Elt Ideal)) :
    biasLogSoftmax (F := Ideal) h x5
      = mapRows (shiftLogSoftmax (Ideal.ofBits .f32 0xFF800000#32) (fun j => x5 (ix1 j))) h :=
  host_shiftLogSoftmax h x5 bcast_S40_S1x40_1 bcast_S1x40_S100000x40_0_1 0xFF800000#32 reducesTo_S100000x40_S100000_d1
    reduces_lanes h_S_ bcast_S_S100000 bcast_S100000_S100000x1_0 bcast_S100000x1_S100000x40_0_1

end Cert.Graph

end
-- ==== Proof.KernelWhole.lean ====
/-
  The idealized kernel's result as a function of its six arguments.

  The run's last boundary holds, at the result's reference, what the third region leaves. Walking the chain of
  boundaries back to the launch: each region's result array is a row map of the arrays it found (TilesOne … TilesThree);
  each host stretch leaves a shared stage function of what it found (KernelStages) and every other buffer as found; a
  region changes only its own arrays. Read through the reference's three dense steps as row maps (GraphLaws) — a
  projection, a biased projection, a biased log-softmax, each the same row function as a tile's — the result is
  `Graph.result` of the argument arrays as launched: the very function the reference computes.
-/
import proofs.«141429_j20117626814729_1_alg».proof.Proof.Gen.KernelIdeal.Frame
import proofs.«141429_j20117626814729_1_alg».proof.Proof.TilesOne
import proofs.«141429_j20117626814729_1_alg».proof.Proof.TilesTwo
import proofs.«141429_j20117626814729_1_alg».proof.Proof.TilesThree
import proofs.«141429_j20117626814729_1_alg».proof.Proof.KernelStages
import proofs.«141429_j20117626814729_1_alg».proof.Proof.GraphLaws

set_option maxRecDepth 16384

noncomputable section

namespace Cert.KernelIdeal.Whole

open Cert.KernelIdeal Cert.KernelIdeal.Gen Cert.KernelIdeal.Tiles Cert.KernelIdeal.Stages
open Idealize.ShloMosaic Idealize.ShloMosaic.TcCoe Idealize.ShloMosaic.ValueIdx Idealize.SL.Sem
open Cert.Graph Cert.RowLayers Cert.Layers Cert.ShiftedRows

variable (m : (ℓ : Loc nD τ sig) → Buf (Elt Ideal) ℓ) (ρ : Dev nD → PrngReg) (c : Dev nD)

/-! ## What the first region finds, and leaves -/

theorem in1_arg0 : V1 m ρ c main_arg0 = m ((c : Thread nD τ).loc main_arg0) := first_keeps_arg0 (W0 m ρ c)
theorem in1_arg2 : V1 m ρ c main_arg2 = m ((c : Thread nD τ).loc main_arg2) := first_keeps_arg2 (W0 m ρ c)

/-- The first region's result: every row of `x` projected by `W₁`. -/
theorem out1 : W2 m ρ c (Proc.devRef .tc main_v27) = mapRows (project (m ((c : Thread nD τ).loc main_arg2))) (m ((c : Thread nD τ).loc main_arg0)) := by
  refine (W2_arr m ρ c 2).trans ((final_one (V1 m ρ) c).trans ?_)
  rw [in1_arg0 m ρ c, in1_arg2 m ρ c]

theorem at2_v5 : W2 m ρ c (Proc.devRef .tc main_v5) = sources (F := Ideal) (m ((c : Thread nD τ).loc main_arg1)) :=
  (W2_of_ne m ρ c main_v5 (by decide)).trans (first_sources (W0 m ρ c))
theorem at2_v6 : W2 m ρ c (Proc.devRef .tc main_v6) = targets (F := Ideal) (m ((c : Thread nD τ).loc main_arg1)) :=
  (W2_of_ne m ρ c main_v6 (by decide)).trans (first_targets (W0 m ρ c))
theorem at2_v26 : W2 m ρ c (Proc.devRef .tc main_v26) = edgeWeight (F := Ideal) (sources (m ((c : Thread nD τ).loc main_arg1))) (targets (m ((c : Thread nD τ).loc main_arg1))) :=
  (W2_of_ne m ρ c main_v26 (by decide)).trans (first_weights (W0 m ρ c))
theorem at2_arg3 : W2 m ρ c (Proc.devRef .tc main_arg3) = m ((c : Thread nD τ).loc main_arg3) :=
  (W2_of_ne m ρ c main_arg3 (by decide)).trans (first_keeps_arg3 (W0 m ρ c))
theorem at2_arg4 : W2 m ρ c (Proc.devRef .tc main_arg4) = m ((c : Thread nD τ).loc main_arg4) :=
  (W2_of_ne m ρ c main_arg4 (by decide)).trans (first_keeps_arg4 (W0 m ρ c))
theorem at2_arg5 : W2 m ρ c (Proc.devRef .tc main_arg5) = m ((c : Thread nD τ).loc main_arg5) :=
  (W2_of_ne m ρ c main_arg5 (by decide)).trans (first_keeps_arg5 (W0 m ρ c))

/-! ## What the second region finds, and leaves -/

/-- The hidden layer before its bias, as the reference spells it. -/
theorem in2_v40 : V3 m ρ c main_v40 = hidden (F := Ideal) (m ((c : Thread nD τ).loc main_arg0)) (m ((c : Thread nD τ).loc main_arg1)) (m ((c : Thread nD τ).loc main_arg2)) := by
  refine (second_spread (W2 m ρ c)).trans ?_
  rw [out1 m ρ c, at2_v5 m ρ c, at2_v6 m ρ c, at2_v26 m ρ c, ← dot_first_eq]
  rfl

theorem in2_v41 : V3 m ρ c main_v41 = shapeCast S1x64 (m ((c : Thread nD τ).loc main_arg3)) shapeCasts_S64_S1x64 := by
  refine (second_bias (W2 m ρ c)).trans ?_
  rw [at2_arg3 m ρ c]

theorem in2_arg4 : V3 m ρ c main_arg4 = m ((c : Thread nD τ).loc main_arg4) :=
  (second_keeps_arg4 (W2 m ρ c)).trans (at2_arg4 m ρ c)

/-- The second region's result: the hidden layer with its bias, projected by `W₂`. -/
theorem out2 : W4 m ρ c (Proc.devRef .tc main_v42)
    = projected (F := Ideal) (hidden (m ((c : Thread nD τ).loc main_arg0)) (m ((c : Thread nD τ).loc main_arg1)) (m ((c : Thread nD τ).loc main_arg2))) (m ((c : Thread nD τ).loc main_arg3)) (m ((c : Thread nD τ).loc main_arg4)) := by
  refine (W4_arr m ρ c 3).trans ((final_two (V3 m ρ) c).trans ?_)
  rw [in2_v40 m ρ c, in2_v41 m ρ c, in2_arg4 m ρ c, rowOf_vector_as_row]
  exact (projected_eq _ _ _).symm

theorem at4_v5 : W4 m ρ c (Proc.devRef .tc main_v5) = sources (F := Ideal) (m ((c : Thread nD τ).loc main_arg1)) :=
  (W4_of_ne m ρ c main_v5 (by decide)).trans ((second_keeps_v5 (W2 m ρ c)).trans (at2_v5 m ρ c))
theorem at4_v6 : W4 m ρ c (Proc.devRef .tc main_v6) = targets (F := Ideal) (m ((c : Thread nD τ).loc main_arg1)) :=
  (W4_of_ne m ρ c main_v6 (by decide)).trans ((second_keeps_v6 (W2 m ρ c)).trans (at2_v6 m ρ c))
theorem at4_v26 : W4 m ρ c (Proc.devRef .tc main_v26) = edgeWeight (F := Ideal) (sources (m ((c : Thread nD τ).loc main_arg1))) (targets (m ((c : Thread nD τ).loc main_arg1))) :=
  (W4_of_ne m ρ c main_v26 (by decide)).trans ((second_keeps_v26 (W2 m ρ c)).trans (at2_v26 m ρ c))
theorem at4_arg5 : W4 m ρ c (Proc.devRef .tc main_arg5) = m ((c : Thread nD τ).loc main_arg5) :=
  (W4_of_ne m ρ c main_arg5 (by decide)).trans ((second_keeps_arg5 (W2 m ρ c)).trans (at2_arg5 m ρ c))

/-! ## What the third region finds, and leaves -/

/-- The output layer before its bias, as the reference spells it. -/
theorem in3_v55 : V5 m ρ c main_v55 = logits (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (third_spread (W4 m ρ c)).trans ?_
  rw [out2 m ρ c, at4_v5 m ρ c, at4_v6 m ρ c, at4_v26 m ρ c]
  rfl

theorem in3_v56 : V5 m ρ c main_v56 = shapeCast S1x40 (m ((c : Thread nD τ).loc main_arg5)) shapeCasts_S40_S1x40 := by
  refine (third_bias (W4 m ρ c)).trans ?_
  rw [at4_arg5 m ρ c]

/-- THE RESULT: the last boundary at the result's reference is the reference's function of the arguments. -/
theorem out3 : W6 m ρ c (Proc.devRef .tc main_v57)
    = result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 2).trans ((final_three (V5 m ρ) c).trans ?_)
  rw [in3_v55 m ρ c, in3_v56 m ρ c, rowOf_vector_as_row]
  exact (biasLogSoftmax_eq _ _).symm

end Cert.KernelIdeal.Whole

end
-- ==== Proof.LibHostFold.lean ====
/-
  The fold of a line of host operations over a concatenated line, and typed references' transports.

  `StableHlo.after ops V` is what a core's buffers hold once the operations `ops` have run in order from contents `V`.
  Running two lines one after the other is running the second from what the first leaves: the fold over `l₁ ++ l₂` is
  the fold over `l₂` of the fold over `l₁`. This lets a long straight-line program be read one stretch at a time, each
  stretch from a valuation that is only a variable, so that no stretch's term is ever nested inside another's.
  An operation of an inlined call reads and writes its buffers through a typed reference, transporting contents along
  the equation "the buffer's type is the value's"; writing a value and reading it back through the same typed reference
  is the identity, whatever the equation's proof.
-/
import Idealize.ShloMosaic.Lib.StableHlo.Run

namespace Cert.HostFold

open Idealize.ShloMosaic Idealize.ShloMosaic.StableHlo

variable {τ : Topo} {sig : RefSig} {Val : EltTy → Type}

/-- The fold over a concatenation is the folds composed. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's buffer and back are the contents. -/
theorem ofBuf_toBuf {T : BufTy} (x : TRef sig T) (v : T.Contents Val) : x.ofBuf (x.toBuf v) = v := by
  obtain ⟨r, h, h2, h3⟩ := x
  subst h
  rfl

end Cert.HostFold
-- ==== Proof.ReferenceStages.lean ====
/-
  The idealized reference, read one stretch at a time.

  The reference is 121 host operations in a line. Cut into six consecutive stretches, each read from ANY contents `W`
  of the core's buffers: the first leaves `x · W₁`, the extended edge list and the edge weights; the second the first
  aggregation of what it finds; the third the biased product with `W₂`; the fourth the edge list and weights again
  (the reference computes them once per layer, from the same edge array, so they are the same arrays); the fifth the
  second aggregation; the sixth the biased row-wise log-softmax. Composed from the launch contents they give the
  result buffer as `Graph.result` of the six arguments; no stretch writes an argument.
-/
import proofs.«141429_j20117626814729_1_alg».proof.Proof.ReferenceRun
import proofs.«141429_j20117626814729_1_alg».proof.Proof.GraphStages
import proofs.«141429_j20117626814729_1_alg».proof.Proof.LibHostFold
import Idealize.ShloMosaic.PureOps.Ideal

noncomputable section

namespace Cert.ReferenceIdeal.Stages

open Cert.ReferenceIdeal Cert.ReferenceIdeal.Gen Cert.ReferenceIdeal.ValueP
open Idealize.ShloMosaic Idealize.ShloMosaic.TcCoe Idealize.SL.Sem Idealize.ShloMosaic.StableHlo Cert.Graph Cert.HostFold

variable (W : Valuation τ sig (Elt Ideal))

/-! ## The first stretch -/

set_option maxHeartbeats 2000000 in
theorem one_product : after ops1 W (Proc.devRef .tc main_v0)
    = Host.dotGeneral (F := Ideal) (φ₁ := .f32) (φ₂ := .f32) dot_S100000x128_S128x64_S100000x64_1_0_0_1_n_n none
        (W (Proc.devRef .tc main_arg0)) (W (Proc.devRef .tc main_arg2)) := by
  after_results_simp <;> rfl

set_option maxHeartbeats 2000000 in
theorem one_sources : after ops1 W (Proc.devRef .tc main_v6) = sources (F := Ideal) (W (Proc.devRef .tc main_arg1)) := by
  after_results_simp <;> rfl

set_option maxHeartbeats 2000000 in
theorem one_targets : after ops1 W (Proc.devRef .tc main_v7) = targets (F := Ideal) (W (Proc.devRef .tc main_arg1)) := by
  after_results_simp <;> rfl

set_option maxHeartbeats 2000000 in
theorem one_weights : after ops1 W (Proc.devRef .tc main_v27)
    = edgeWeight (F := Ideal) (sources (W (Proc.devRef .tc main_arg1))) (targets (W (Proc.devRef .tc main_arg1))) := by
  after_results_simp <;> rfl

set_option maxHeartbeats 2000000 in
theorem one_keeps_arg1 : after ops1 W (Proc.devRef .tc main_arg1) = W (Proc.devRef .tc main_arg1) := by
  after_results_simp <;> rfl

set_option maxHeartbeats 2000000 in
theorem one_keeps_arg3 : after ops1 W (Proc.devRef .tc main_arg3) = W (Proc.devRef .tc main_arg3) := by
  after_results_simp <;> rfl

set_option maxHeartbeats 2000000 in
theorem one_keeps_arg4 : after ops1 W (Proc.devRef .tc main_arg4) = W (Proc.devRef .tc main_arg4) := by
  after_results_simp <;> rfl

set_option maxHeartbeats 2000000 in
theorem one_keeps_arg5 : after ops1 W (Proc.devRef .tc main_arg5) = W (Proc.devRef .tc main_arg5) := by
  after_results_simp <;> rfl

/-! ## The second stretch -/

set_option maxHeartbeats 2000000 in
theorem two_spread : after ops2 W (Proc.devRef .tc main_v40)
    = spread64 (F := Ideal) (W (Proc.devRef .tc main_v0)) (W (Proc.devRef .tc main_v6)) (W (Proc.devRef .tc main_v7))
        (W (Proc.devRef .tc main_v27)) := by
  after_results_simp <;> rfl

set_option maxHeartbeats 2000000 in
theorem two_keeps_arg1 : after ops2 W (Proc.devRef .tc main_arg1) = W (Proc.devRef .tc main_arg1) := by
  after_results_simp <;> rfl

set_option maxHeartbeats 2000000 in
theorem two_keeps_arg3 : after ops2 W (Proc.devRef .tc main_arg3) = W (Proc.devRef .tc main_arg3) := by
  after_results_simp <;> rfl

set_option maxHeartbeats 2000000 in
theorem two_keeps_arg4 : after ops2 W (Proc.devRef .tc main_arg4) = W (Proc.devRef .tc main_arg4) := by
  after_results_simp <;> rfl

set_option maxHeartbeats 2000000 in
theorem two_keeps_arg5 : after ops2 W (Proc.devRef .tc main_arg5) = W (Proc.devRef .tc main_arg5) := by
  after_results_simp <;> rfl

/-! ## The third stretch -/

set_option maxHeartbeats 2000000 in
theorem three_projected : after ops3 W (Proc.devRef .tc main_v44)
    = projected (F := Ideal) (W (Proc.devRef .tc main_v40)) (W (Proc.devRef .tc main_arg3)) (W (Proc.devRef .tc main_arg4)) := by
  after_results_simp <;> rfl

set_option maxHeartbeats 2000000 in
theorem three_keeps_arg1 : after ops3 W (Proc.devRef .tc main_arg1) = W (Proc.devRef .tc main_arg1) := by
  after_results_simp <;> rfl

set_option maxHeartbeats 2000000 in
theorem three_keeps_arg5 : after ops3 W (Proc.devRef .tc main_arg5) = W (Proc.devRef .tc main_arg5) := by
  after_results_simp <;> rfl

/-! ## The fourth stretch -/

set_option maxHeartbeats 2000000 in
theorem four_sources : after ops4 W (Proc.devRef .tc main_v50) = sources (F := Ideal) (W (Proc.devRef .tc main_arg1)) := by
  after_results_simp <;> rfl

set_option maxHeartbeats 2000000 in
theorem four_targets : after ops4 W (Proc.devRef .tc main_v51) = targets (F := Ideal) (W (Proc.devRef .tc main_arg1)) := by
  after_results_simp <;> rfl

set_option maxHeartbeats 2000000 in
theorem four_weights : after ops4 W (Proc.devRef .tc main_v71)
    = edgeWeight (F := Ideal) (sources (W (Proc.devRef .tc main_arg1))) (targets (W (Proc.devRef .tc main_arg1))) := by
  after_results_simp <;> rfl

set_option maxHeartbeats 2000000 in
theorem four_keeps_v44 : after ops4 W (Proc.devRef .tc main_v44) = W (Proc.devRef .tc main_v44) := by
  after_results_simp <;> rfl

set_option maxHeartbeats 2000000 in
theorem four_keeps_arg5 : after ops4 W (Proc.devRef .tc main_arg5) = W (Proc.devRef .tc main_arg5) := by
  after_results_simp <;> rfl

/-! ## The fifth stretch -/

set_option maxHeartbeats 2000000 in
theorem five_spread : after ops5 W (Proc.devRef .tc main_v84)
    = spread40 (F := Ideal) (W (Proc.devRef .tc main_v44)) (W (Proc.devRef .tc main_v50)) (W (Proc.devRef .tc main_v51))
        (W (Proc.devRef .tc main_v71)) := by
  after_results_simp <;> rfl

set_option maxHeartbeats 2000000 in
theorem five_keeps_arg5 : after ops5 W (Proc.devRef .tc main_arg5) = W (Proc.devRef .tc main_arg5) := by
  after_results_simp <;> rfl

/-! ## The sixth stretch -/

/-- Reading the biased logits' buffer through its typed reference changes nothing: the buffer's type is the value's. -/
theorem ofBuf_logits (p1 : main_v87.ty = (⟨S100000x40, .f32⟩ : BufTy)) (p2 : main_v87.space ≠ .host)
    (p3 : main_v87.isScoped = false) (v : main_v87.ty.Contents (Elt Ideal)) :
    (TRef.of (T := ⟨S100000x40, .f32⟩) main_v87 p1 p2 p3).ofBuf v = v := rfl

/-- Writing the result's buffer through its typed reference changes nothing. -/
theorem toBuf_result (p1 : main_v88.ty = (⟨S100000x40, .f32⟩ : BufTy)) (p2 : main_v88.space ≠ .host)
    (p3 : main_v88.isScoped = false) (v : (⟨S100000x40, .f32⟩ : BufTy).Contents (Elt Ideal)) :
    (TRef.of (T := ⟨S100000x40, .f32⟩) main_v88 p1 p2 p3).toBuf v = v := rfl

set_option maxHeartbeats 2000000 in
/-- The inlined log-softmax passes every intermediate through a typed reference; each write-then-read is the identity
    (`ofBuf_toBuf`), and what is left is the host's spelling. -/
theorem six_softmax : after ops6 W (Proc.devRef .tc main_v88)
    = biasLogSoftmax (F := Ideal) (W (Proc.devRef .tc main_v84)) (W (Proc.devRef .tc main_arg5)) := by
  after_results_simp
  rw [toBuf_result]
  repeat rw [ofBuf_toBuf]
  repeat rw [ofBuf_logits]
  rfl

/-! ## The whole line -/

/-- From any contents, the result buffer after all 121 operations is `result` of the six argument buffers' contents. -/
theorem value : after ops W (Proc.devRef .tc main_v88)
    = result (F := Ideal) (W (Proc.devRef .tc main_arg0)) (W (Proc.devRef .tc main_arg1)) (W (Proc.devRef .tc main_arg2))
        (W (Proc.devRef .tc main_arg3)) (W (Proc.devRef .tc main_arg4)) (W (Proc.devRef .tc main_arg5)) := by
  rw [ops_eq, after_append, after_append, after_append, after_append, after_append]
  rw [six_softmax, five_spread, five_keeps_arg5]
  rw [four_keeps_v44, four_sources, four_targets, four_weights, four_keeps_arg5]
  rw [three_projected, three_keeps_arg1, three_keeps_arg5]
  rw [two_spread, two_keeps_arg1, two_keeps_arg3, two_keeps_arg4, two_keeps_arg5]
  rw [one_product, one_sources, one_targets, one_weights, one_keeps_arg1, one_keeps_arg3, one_keeps_arg4, one_keeps_arg5]
  rfl

/-! ## No operation writes an argument -/

set_option maxHeartbeats 20000000 in
set_option maxRecDepth 8192 in
theorem keeps_arg0 : after ops W (Proc.devRef .tc main_arg0) = W (Proc.devRef .tc main_arg0) := by
  after_results_simp <;> rfl

set_option maxHeartbeats 20000000 in
set_option maxRecDepth 8192 in
theorem keeps_arg1 : after ops W (Proc.devRef .tc main_arg1) = W (Proc.devRef .tc main_arg1) := by
  after_results_simp <;> rfl

set_option maxHeartbeats 20000000 in
set_option maxRecDepth 8192 in
theorem keeps_arg2 : after ops W (Proc.devRef .tc main_arg2) = W (Proc.devRef .tc main_arg2) := by
  after_results_simp <;> rfl

set_option maxHeartbeats 20000000 in
set_option maxRecDepth 8192 in
theorem keeps_arg3 : after ops W (Proc.devRef .tc main_arg3) = W (Proc.devRef .tc main_arg3) := by
  after_results_simp <;> rfl

set_option maxHeartbeats 20000000 in
set_option maxRecDepth 8192 in
theorem keeps_arg4 : after ops W (Proc.devRef .tc main_arg4) = W (Proc.devRef .tc main_arg4) := by
  after_results_simp <;> rfl

set_option maxHeartbeats 20000000 in
set_option maxRecDepth 8192 in
theorem keeps_arg5 : after ops W (Proc.devRef .tc main_arg5) = W (Proc.devRef .tc main_arg5) := by
  after_results_simp <;> rfl

/-! ## The run -/

/-- Every weakly fair execution of the reference terminates with its result buffer at `result` of the six arguments
    as launched, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88)
          = result (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v88).trans (value (launchContents m c)),
       (h c main_arg0).trans (keeps_arg0 (launchContents m c)),
       (h c main_arg1).trans (keeps_arg1 (launchContents m c)),
       (h c main_arg2).trans (keeps_arg2 (launchContents m c)),
       (h c main_arg3).trans (keeps_arg3 (launchContents m c)),
       (h c main_arg4).trans (keeps_arg4 (launchContents m c)),
       (h c main_arg5).trans (keeps_arg5 (launchContents m c))⟩)
    (run_fold (F := Ideal) m ρ)

end Cert.ReferenceIdeal.Stages

end
-- ==== Proof.lean ====
/-
  A two-layer graph convolution with a log-softmax head, tiled on the device against the plain host program: the claims.

  Both programs compute, for node features `x`, an edge array and two weight/bias pairs,

      log_softmax (Â · ((Â · (x · W₁) + b₁) · W₂) + b₂)        Â = D^{-1/2} (A + I) D^{-1/2},

  where `Â ·` is carried out edge by edge (gather the source rows, scale by the edge's weight, scatter-add at the
  targets). The kernel computes the three dense steps in tiles of 2000 rows — `x · W₁`; `(h + b₁) · W₂` with the bias
  added inside the tile; the log-softmax of `h + b₂` — and leaves the edge-wise steps to the same host operations the
  reference uses. Each dense step treats every row alone, so a tile of the step is the step's tile, and the fifty tiles
  cover the rows: the kernel's result is the reference's function of the six arguments, with no condition on the
  entries (every sum and fold is the same term by term; a change of float format is the identity on extended reals).
  The modules: LibShiftedRows / LibRowTiles (the row functions and a tile of a row map), TilesOne … TilesThree (each
  region's result array), GraphStages / GraphLaws (the host stages, named once, and the dense steps as row maps),
  KernelStages / KernelWhole (the kernel's chain of boundaries read back to the launch), ReferenceStages (the
  reference read one stretch at a time), ResultKept (the kernel's run with its result kept).
-/
import proofs.«141429_j20117626814729_1_alg».proof.Defs
import proofs.«141429_j20117626814729_1_alg».proof.Proof.Gen.Kernel
import proofs.«141429_j20117626814729_1_alg».proof.Proof.Gen.Kernel.Skeleton
import proofs.«141429_j20117626814729_1_alg».proof.Proof.Gen.Kernel.Launch
import proofs.«141429_j20117626814729_1_alg».proof.Proof.Gen.Kernel.Points
import proofs.«141429_j20117626814729_1_alg».proof.Proof.Gen.Kernel.Frame
import proofs.«141429_j20117626814729_1_alg».proof.Proof.Gen.KernelIdeal
import proofs.«141429_j20117626814729_1_alg».proof.Proof.Gen.KernelIdeal.Skeleton
import proofs.«141429_j20117626814729_1_alg».proof.Proof.Gen.KernelIdeal.Launch
import proofs.«141429_j20117626814729_1_alg».proof.Proof.Gen.KernelIdeal.Points
import proofs.«141429_j20117626814729_1_alg».proof.Proof.Gen.KernelIdeal.Frame
import proofs.«141429_j20117626814729_1_alg».proof.Proof.Gen.ReferenceIdeal
import proofs.«141429_j20117626814729_1_alg».proof.Proof.Gen.Pre_finite_inputs
import proofs.«141429_j20117626814729_1_alg».proof.Proof.ResultKept
import proofs.«141429_j20117626814729_1_alg».proof.Proof.KernelWhole
import proofs.«141429_j20117626814729_1_alg».proof.Proof.ReferenceStages
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Stages.run m ρ)

/-- The ideal pass rewrote nothing. -/
theorem preserves : Cert.preserves_Kernel_KernelIdeal := trivial

/-- From memories that agree on the six arguments both idealized programs end with the result buffer at
    `Graph.result` of those arguments: the kernel by its chain of boundaries, the reference by its six stretches. -/
theorem algebraic : Cert.algebraic_KernelIdeal_ReferenceIdeal := by
  intro m ρ m' ρ' _ hagree
  refine ⟨fun c => Cert.Graph.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Whole.out3 m ρ c), (h c).2⟩)
      (Cert.KernelIdeal.Kept.run (F := Ideal) m ρ)
  · refine (θ_run Cert.ReferenceIdeal.defs _ _).mono (fun _ h c => ⟨(h c).1.trans ?_, (h c).2⟩)
      (Cert.ReferenceIdeal.Stages.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
